-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S20x512 : Shape := ⟨2, ![20, 512]⟩
abbrev S20 : Shape := ⟨1, ![20]⟩
abbrev S5x20 : Shape := ⟨2, ![5, 20]⟩
abbrev S5x20x20x2 : Shape := ⟨4, ![5, 20, 20, 2]⟩
abbrev S1x5 : Shape := ⟨2, ![1, 5]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S20x512 : S_.BroadcastsInDim S20x512 (![] : Fin 0 → Fin S20x512.rank)
  reducesTo_S20x512_S_d0_1 : S20x512.ReducesTo [0, 1] S_
  bcast_S_S20 : S_.BroadcastsInDim S20 (![] : Fin 0 → Fin S20.rank)
  reducesTo_S20_S_d0 : S20.ReducesTo [0] S_
  bcast_S_S5x20 : S_.BroadcastsInDim S5x20 (![] : Fin 0 → Fin S5x20.rank)
  reducesTo_S5x20_S_d0_1 : S5x20.ReducesTo [0, 1] S_
  bcast_S_S5x20x20x2 : S_.BroadcastsInDim S5x20x20x2 (![] : Fin 0 → Fin S5x20x20x2.rank)
  reducesTo_S5x20x20x2_S_d0_1_2_3 : S5x20x20x2.ReducesTo [0, 1, 2, 3] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg6 : FVec F S5x20 .f32) (main_v48 : IVec S_ 1) (main_v50 : IVec S5x20 1) : IVec S_ 1 :=
  let main_c_19 : IVec S_ 1 := constantI S_ 1 1#1
  let main_v51 : IVec S_ 1 := (fun x v => Host.reduce IntOp.andi x v reducesTo_S5x20_S_d0_1 h_S_) main_v50 main_c_19
  let main_v52 : IVec S_ 1 := andi main_v48 main_v51
  let main_cst_20 : FVec F S_ .f32 := constant S_ .f32 0x00000000#32
  let main_v53 : FVec F S5x20 .f32 := broadcastInDim S5x20 ![] bcast_S_S5x20 main_cst_20
  let main_v54 : IVec S5x20 1 := cmpf .ogt main_arg6 main_v53
  let main_c_21 : IVec S_ 1 := constantI S_ 1 1#1
  let main_v55 : IVec S_ 1 := (fun x v => Host.reduce IntOp.andi x v reducesTo_S5x20_S_d0_1 h_S_) main_v54 main_c_21
  let main_v56 : IVec S_ 1 := andi main_v52 main_v55
  main_v56

def fn_part2 {F : FTy → Type} [FloatOps F] (main_arg4 : FVec F S5x20 .f32) (main_arg6 : FVec F S5x20 .f32) (main_arg7 : FVec F S5x20x20x2 .f32) (main_arg8 : FVec F S1x5 .f32) (main_arg9 : FVec F S1 .f32) (main_v33 : IVec S_ 1) : IVec S_ 1 :=
  let main_v34 : FVec F S5x20x20x2 .f32 := Host.absf main_arg7
  let main_cst_12 : FVec F S_ .f32 := constant S_ .f32 0x7F800000#32
  let main_v35 : FVec F S5x20x20x2 .f32 := broadcastInDim S5x20x20x2 ![] bcast_S_S5x20x20x2 main_cst_12
  let main_v36 : IVec S5x20x20x2 1 := cmpf .olt main_v34 main_v35
  let main_c_13 : IVec S_ 1 := constantI S_ 1 1#1
  let main_v37 : IVec S_ 1 := (fun x v => Host.reduce IntOp.andi x v reducesTo_S5x20x20x2_S_d0_1_2_3 h_S_) main_v36 main_c_13
  let main_v38 : IVec S_ 1 := andi main_v33 main_v37
  let main_v39 : FVec F S1x5 .f32 := Host.absf main_arg8
  let main_cst_14 : FVec F S_ .f32 := constant S_ .f32 0x7F800000#32
  let main_v40 : FVec F S1x5 .f32 := broadcastInDim S1x5 ![] bcast_S_S1x5 main_cst_14
  let main_v41 : IVec S1x5 1 := cmpf .olt main_v39 main_v40
  let main_c_15 : IVec S_ 1 := constantI S_ 1 1#1
  let main_v42 : IVec S_ 1 := (fun x v => Host.reduce IntOp.andi x v reducesTo_S1x5_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_cst_18 : FVec F S_ .f32 := constant S_ .f32 0x00000000#32
  let main_v49 : FVec F S5x20 .f32 := broadcastInDim S5x20 ![] bcast_S_S5x20 main_cst_18
  let main_v50 : IVec S5x20 1 := cmpf .ogt main_arg4 main_v49
  fn_part3 (F := F) main_arg6 main_v48 main_v50

def fn_part1 {F : FTy → Type} [FloatOps F] (main_arg4 : FVec F S5x20 .f32) (main_arg5 : FVec F S5x20 .f32) (main_arg6 : FVec F S5x20 .f32) (main_arg7 : FVec F S5x20x20x2 .f32) (main_arg8 : FVec F S1x5 .f32) (main_arg9 : FVec F S1 .f32) (main_v13 : IVec S_ 1) (main_v16 : IVec S5x20 1) : IVec S_ 1 :=
  let main_c_5 : IVec S_ 1 := constantI S_ 1 1#1
  let main_v17 : IVec S_ 1 := (fun x v => Host.reduce IntOp.andi x v reducesTo_S5x20_S_d0_1 h_S_) main_v16 main_c_5
  let main_v18 : IVec S_ 1 := andi main_v13 main_v17
  let main_v19 : FVec F S5x20 .f32 := Host.absf main_arg4
  let main_cst_6 : FVec F S_ .f32 := constant S_ .f32 0x7F800000#32
  let main_v20 : FVec F S5x20 .f32 := broadcastInDim S5x20 ![] bcast_S_S5x20 main_cst_6
  let main_v21 : IVec S5x20 1 := cmpf .olt main_v19 main_v20
  let main_c_7 : IVec S_ 1 := constantI S_ 1 1#1
  let main_v22 : IVec S_ 1 := (fun x v => Host.reduce IntOp.andi x v reducesTo_S5x20_S_d0_1 h_S_) main_v21 main_c_7
  let main_v23 : IVec S_ 1 := andi main_v18 main_v22
  let main_v24 : FVec F S5x20 .f32 := Host.absf main_arg5
  let main_cst_8 : FVec F S_ .f32 := constant S_ .f32 0x7F800000#32
  let main_v25 : FVec F S5x20 .f32 := broadcastInDim S5x20 ![] bcast_S_S5x20 main_cst_8
  let main_v26 : IVec S5x20 1 := cmpf .olt main_v24 main_v25
  let main_c_9 : IVec S_ 1 := constantI S_ 1 1#1
  let main_v27 : IVec S_ 1 := (fun x v => Host.reduce IntOp.andi x v reducesTo_S5x20_S_d0_1 h_S_) main_v26 main_c_9
  let main_v28 : IVec S_ 1 := andi main_v23 main_v27
  let main_v29 : FVec F S5x20 .f32 := Host.absf main_arg6
  let main_cst_10 : FVec F S_ .f32 := constant S_ .f32 0x7F800000#32
  let main_v30 : FVec F S5x20 .f32 := broadcastInDim S5x20 ![] bcast_S_S5x20 main_cst_10
  let main_v31 : IVec S5x20 1 := cmpf .olt main_v29 main_v30
  let main_c_11 : IVec S_ 1 := constantI S_ 1 1#1
  let main_v32 : IVec S_ 1 := (fun x v => Host.reduce IntOp.andi x v reducesTo_S5x20_S_d0_1 h_S_) main_v31 main_c_11
  let main_v33 : IVec S_ 1 := andi main_v28 main_v32
  fn_part2 (F := F) main_arg4 main_arg6 main_arg7 main_arg8 main_arg9 main_v33

def fn {F : FTy → Type} [FloatOps F] (main_arg0 : FVec F S32768x512 .f32) (main_arg1 : FVec F S20x512 .f32) (main_arg2 : FVec F S20 .f32) (main_arg3 : FVec F S5x20 .f32) (main_arg4 : FVec F S5x20 .f32) (main_arg5 : FVec F S5x20 .f32) (main_arg6 : FVec F S5x20 .f32) (main_arg7 : FVec F S5x20x20x2 .f32) (main_arg8 : FVec F S1x5 .f32) (main_arg9 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S20x512 .f32 := Host.absf main_arg1
  let main_cst_0 : FVec F S_ .f32 := constant S_ .f32 0x7F800000#32
  let main_v5 : FVec F S20x512 .f32 := broadcastInDim S20x512 ![] bcast_S_S20x512 main_cst_0
  let main_v6 : IVec S20x512 1 := cmpf .olt main_v4 main_v5
  let main_c_1 : IVec S_ 1 := constantI S_ 1 1#1
  let main_v7 : IVec S_ 1 := (fun x v => Host.reduce IntOp.andi x v reducesTo_S20x512_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S5x20 .f32 := Host.absf main_arg3
  let main_cst_4 : FVec F S_ .f32 := constant S_ .f32 0x7F800000#32
  let main_v15 : FVec F S5x20 .f32 := broadcastInDim S5x20 ![] bcast_S_S5x20 main_cst_4
  let main_v16 : IVec S5x20 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S20x512 : Shape := ⟨2, ![20, 512]⟩
abbrev S20 : Shape := ⟨1, ![20]⟩
abbrev S5x20 : Shape := ⟨2, ![5, 20]⟩
abbrev S5x20x20x2 : Shape := ⟨4, ![5, 20, 20, 2]⟩
abbrev S1x5 : Shape := ⟨2, ![1, 5]⟩
abbrev S1 : Shape := ⟨1, ![1]⟩
abbrev S1x20 : Shape := ⟨2, ![1, 20]⟩
abbrev S5x20x20x1 : Shape := ⟨4, ![5, 20, 20, 1]⟩
abbrev S5x20x20 : Shape := ⟨3, ![5, 20, 20]⟩
abbrev S_ : Shape := ⟨0, ![]⟩
abbrev S5x32768 : Shape := ⟨2, ![5, 32768]⟩
abbrev S1024x512 : Shape := ⟨2, ![1024, 512]⟩
abbrev S5x1024 : Shape := ⟨2, ![5, 1024]⟩
abbrev S512x20 : Shape := ⟨2, ![512, 20]⟩
abbrev S1024x20 : Shape := ⟨2, ![1024, 20]⟩
abbrev S20x1024 : Shape := ⟨2, ![20, 1024]⟩
abbrev S20x1 : Shape := ⟨2, ![20, 1]⟩
abbrev S20x1x1024 : Shape := ⟨3, ![20, 1, 1024]⟩
abbrev S1x20x1024 : Shape := ⟨3, ![1, 20, 1024]⟩
abbrev S20x20x1024 : Shape := ⟨3, ![20, 20, 1024]⟩
abbrev S1x20x20 : Shape := ⟨3, ![1, 20, 20]⟩
abbrev S20x20 : Shape := ⟨2, ![20, 20]⟩
abbrev S20x20x1 : Shape := ⟨3, ![20, 20, 1]⟩
abbrev S1024 : Shape := ⟨1, ![1024]⟩
abbrev S1x1024 : Shape := ⟨2, ![1, 1024]⟩
abbrev S32768x5 : Shape := ⟨2, ![32768, 5]⟩
abbrev S5x1 : Shape := ⟨2, ![5, 1]⟩
abbrev S32768x1 : Shape := ⟨2, ![32768, 1]⟩
abbrev S1x1 : Shape := ⟨2, ![1, 1]⟩

abbrev nBuf : Space → Nat
  | .hbm => 52
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S20x512, .f32⟩
  | .hbm, ⟨2, _⟩ => ⟨S20, .f32⟩
  | .hbm, ⟨3, _⟩ => ⟨S5x20, .f32⟩
  | .hbm, ⟨4, _⟩ => ⟨S5x20, .f32⟩
  | .hbm, ⟨5, _⟩ => ⟨S5x20, .f32⟩
  | .hbm, ⟨6, _⟩ => ⟨S5x20, .f32⟩
  | .hbm, ⟨7, _⟩ => ⟨S5x20x20x2, .f32⟩
  | .hbm, ⟨8, _⟩ => ⟨S1x5, .f32⟩
  | .hbm, ⟨9, _⟩ => ⟨S1, .f32⟩
  | .hbm, ⟨10, _⟩ => ⟨S1x20, .f32⟩
  | .hbm, ⟨11, _⟩ => ⟨S5x20x20x1, .f32⟩
  | .hbm, ⟨12, _⟩ => ⟨S5x20x20, .f32⟩
  | .hbm, ⟨13, _⟩ => ⟨S5x20x20x1, .f32⟩
  | .hbm, ⟨14, _⟩ => ⟨S5x20x20, .f32⟩
  | .hbm, ⟨15, _⟩ => ⟨S_, .f32⟩
  | .hbm, ⟨16, _⟩ => ⟨S5x20, .f32⟩
  | .hbm, ⟨17, _⟩ => ⟨S5x20, .f32⟩
  | .hbm, ⟨18, _⟩ => ⟨S_, .f32⟩
  | .hbm, ⟨19, _⟩ => ⟨S5x20, .f32⟩
  | .hbm, ⟨20, _⟩ => ⟨S5x20, .f32⟩
  | .hbm, ⟨21, _⟩ => ⟨S5x20, .f32⟩
  | .hbm, ⟨22, _⟩ => ⟨S5x20, .f32⟩
  | .hbm, ⟨23, _⟩ => ⟨S5x20, .f32⟩
  | .hbm, ⟨24, _⟩ => ⟨S5x20, .f32⟩
  | .hbm, ⟨25, _⟩ => ⟨S_, .f32⟩
  | .hbm, ⟨26, _⟩ => ⟨S5x20, .f32⟩
  | .hbm, ⟨27, _⟩ => ⟨S5x20, .f32⟩
  | .hbm, ⟨28, _⟩ => ⟨S5x20, .f32⟩
  | .hbm, ⟨29, _⟩ => ⟨S5x20, .f32⟩
  | .hbm, ⟨30, _⟩ => ⟨S_, .f32⟩
  | .hbm, ⟨31, _⟩ => ⟨S5x20, .f32⟩
  | .hbm, ⟨32, _⟩ => ⟨S5x20, .f32⟩
  | .hbm, ⟨33, _⟩ => ⟨S5x32768, .f32⟩
  | .hbm, ⟨34, _⟩ => ⟨S32768x5, .f32⟩
  | .hbm, ⟨35, _⟩ => ⟨S_, .f32⟩
  | .hbm, ⟨36, _⟩ => ⟨S_, .f32⟩
  | .hbm, ⟨37, _⟩ => ⟨S32768x5, .f32⟩
  | .hbm, ⟨38, _⟩ => ⟨S32768x5, .f32⟩
  | .hbm, ⟨39, _⟩ => ⟨S5x1, .f32⟩
  | .hbm, ⟨40, _⟩ => ⟨S32768x1, .f32⟩
  | .hbm, ⟨41, _⟩ => ⟨S1x1, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .local _ .vmem, ⟨0, _⟩ => ⟨S1024x512, .f32⟩
  | .local _ .vmem, ⟨1, _⟩ => ⟨S1024x512, .f32⟩
  | .local _ .vmem, ⟨2, _⟩ => ⟨S20x512, .f32⟩
  | .local _ .vmem, ⟨3, _⟩ => ⟨S1x20, .f32⟩
  | .local _ .vmem, ⟨4, _⟩ => ⟨S5x20, .f32⟩
  | .local _ .vmem, ⟨5, _⟩ => ⟨S5x20, .f32⟩
  | .local _ .vmem, ⟨6, _⟩ => ⟨S5x20, .f32⟩
  | .local _ .vmem, ⟨7, _⟩ => ⟨S5x20, .f32⟩
  | .local _ .vmem, ⟨8, _⟩ => ⟨S5x20, .f32⟩
  | .local _ .vmem, ⟨9, _⟩ => ⟨S5x20, .f32⟩
  | .local _ .vmem, ⟨10, _⟩ => ⟨S5x20x20, .f32⟩
  | .local _ .vmem, ⟨11, _⟩ => ⟨S5x20x20, .f32⟩
  | .local _ .vmem, ⟨12, _⟩ => ⟨S5x1024, .f32⟩
  | .local _ .vmem, ⟨13, _⟩ => ⟨S5x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x20x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x20x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S20_S1x20 : S20.ShapeCasts S1x20
  slices_S5x20x20x2_S5x20x20x1_0_0_0_0 : S5x20x20x2.Slices ![0, 0, 0, 0] S5x20x20x1
  shapeCasts_S5x20x20x1_S5x20x20 : S5x20x20x1.ShapeCasts S5x20x20
  slices_S5x20x20x2_S5x20x20x1_0_0_0_1 : S5x20x20x2.Slices ![0, 0, 0, 1] S5x20x20x1
  bcast_S_S5x20 : S_.BroadcastsInDim S5x20 (![] : Fin 0 → Fin S5x20.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S20x512_S20x512_0_0 : ∀ a, (![0, 0] : Fin 2 → Nat) a + S20x512.size a ≤ S20x512.size a
  h_S20x512 : 0 < S20x512.numel
  transposes_S20x512_p1_0_S512x20 : S20x512.Transposes [1, 0] S512x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S1024x20 : S1x20.Broadcasts S1024x20
  transposes_S1024x20_p1_0_S20x1024 : S1024x20.Transposes [1, 0] S20x1024
  inb_S5x20_S1x20_0_0 : ∀ a, (![0, 0] : Fin 2 → Nat) a + S1x20.size a ≤ S5x20.size a
  shapeCasts_S1x20_S20 : S1x20.ShapeCasts S20
  shapeCasts_S20_S20x1 : S20.ShapeCasts S20x1
  broadcasts_S20x1_S20x1024 : S20x1.Broadcasts S20x1024
  shapeCasts_S20x1024_S20x1x1024 : S20x1024.ShapeCasts S20x1x1024
  shapeCasts_S20x1024_S1x20x1024 : S20x1024.ShapeCasts S1x20x1024
  broadcasts_S20x1x1024_S20x20x1024 : S20x1x1024.Broadcasts S20x20x1024
  broadcasts_S1x20x1024_S20x20x1024 : S1x20x1024.Broadcasts S20x20x1024
  inb_S5x20x20_S1x20x20_0_0_0 : ∀ a, (![0, 0, 0] : Fin 3 → Nat) a + S1x20x20.size a ≤ S5x20x20.size a
  h_S1x20x20 : 0 < S1x20x20.numel
  shapeCasts_S1x20x20_S20x20 : S1x20x20.ShapeCasts S20x20
  shapeCasts_S20x20_S20x20x1 : S20x20.ShapeCasts S20x20x1
  broadcasts_S20x20x1_S20x20x1024 : S20x20x1.Broadcasts S20x20x1024
  reduces_S20x20x1024_S20x1024 : S20x20x1024.Reduces [0] S20x1024
  reduces_S20x1024_S1024 : S20x1024.Reduces [0] S1024
  inb_S5x1024_S1x1024_0_0 : ∀ a, (![0, 0] : Fin 2 → Nat) a + S1x1024.size a ≤ S5x1024.size a
  h_S1x1024 : 0 < S1x1024.numel
  shapeCasts_S1x1024_S1024 : S1x1024.ShapeCasts S1024
  shapeCasts_S1024_S1x1024 : S1024.ShapeCasts S1x1024
  inb_S5x20_S1x20_1_0 : ∀ a, (![1, 0] : Fin 2 → Nat) a + S1x20.size a ≤ S5x20.size a
  inb_S5x20x20_S1x20x20_1_0_0 : ∀ a, (![1, 0, 0] : Fin 3 → Nat) a + S1x20x20.size a ≤ S5x20x20.size a
  inb_S5x1024_S1x1024_1_0 : ∀ a, (![1, 0] : Fin 2 → Nat) a + S1x1024.size a ≤ S5x1024.size a
  inb_S5x20_S1x20_2_0 : ∀ a, (![2, 0] : Fin 2 → Nat) a + S1x20.size a ≤ S5x20.size a
  inb_S5x20x20_S1x20x20_2_0_0 : ∀ a, (![2, 0, 0] : Fin 3 → Nat) a + S1x20x20.size a ≤ S5x20x20.size a
  inb_S5x1024_S1x1024_2_0 : ∀ a, (![2, 0] : Fin 2 → Nat) a + S1x1024.size a ≤ S5x1024.size a
  inb_S5x20_S1x20_3_0 : ∀ a, (![3, 0] : Fin 2 → Nat) a + S1x20.size a ≤ S5x20.size a
  inb_S5x20x20_S1x20x20_3_0_0 : ∀ a, (![3, 0, 0] : Fin 3 → Nat) a + S1x20x20.size a ≤ S5x20x20.size a
  inb_S5x1024_S1x1024_3_0 : ∀ a, (![3, 0] : Fin 2 → Nat) a + S1x1024.size a ≤ S5x1024.size a
  inb_S5x20_S1x20_4_0 : ∀ a, (![4, 0] : Fin 2 → Nat) a + S1x20.size a ≤ S5x20.size a
  inb_S5x20x20_S1x20x20_4_0_0 : ∀ a, (![4, 0, 0] : Fin 3 → Nat) a + S1x20x20.size a ≤ S5x20x20.size a
  inb_S5x1024_S1x1024_4_0 : ∀ a, (![4, 0] : Fin 2 → Nat) a + S1x1024.size a ≤ S5x1024.size a
  transposes_S5x32768_S32768x5_1_0 : S5x32768.Transposes [1, 0] S32768x5
  reducesTo_S32768x5_S_d0_1 : S32768x5.ReducesTo [0, 1] S_
  h_S_ : 0 < S_.numel
  bcast_S_S32768x5 : S_.BroadcastsInDim S32768x5 (![] : Fin 0 → Fin S32768x5.rank)
  transposes_S1x5_S5x1_1_0 : S1x5.Transposes [1, 0] S5x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S1024x512_S512x20_S1024x20_1_0_0_1_n_n_wf : DotDims.WF S1024x512 S512x20 S1024x20 [1] [0] [0] [1] [] []
  dot_S32768x5_S5x1_S32768x1_1_0_0_1_n_n_wf : DotDims.WF S32768x5 S5x1 S32768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x512.size a ≤ S20x512.size a
  hwx0_1 : ∀ i : grid0.Coords, EltTy.bits .f32 = 32 ∨ (Rect.block (s := S20x512) S20x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x20.size a ≤ S5x20.size a
  hwx0_3 : ∀ i : grid0.Coords, EltTy.bits .f32 = 32 ∨ (Rect.block (s := S5x20) S5x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x20.size a ≤ S5x20.size a
  hwx0_4 : ∀ i : grid0.Coords, EltTy.bits .f32 = 32 ∨ (Rect.block (s := S5x20) S5x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x20.size a ≤ S5x20.size a
  hwx0_5 : ∀ i : grid0.Coords, EltTy.bits .f32 = 32 ∨ (Rect.block (s := S5x20) S5x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x20.size a ≤ S5x20.size a
  hwx0_6 : ∀ i : grid0.Coords, EltTy.bits .f32 = 32 ∨ (Rect.block (s := S5x20) S5x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x20.size a ≤ S5x20.size a
  hwx0_7 : ∀ i : grid0.Coords, EltTy.bits .f32 = 32 ∨ (Rect.block (s := S5x20) S5x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x20.size a ≤ S5x20.size a
  hwx0_8 : ∀ i : grid0.Coords, EltTy.bits .f32 = 32 ∨ (Rect.block (s := S5x20) S5x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x20x20.size a ≤ S5x20x20.size a
  hwx0_9 : ∀ i : grid0.Coords, EltTy.bits .f32 = 32 ∨ (Rect.block (s := S5x20x20) S5x20x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x20x20.size a ≤ S5x20x20.size a
  hwx0_10 : ∀ i : grid0.Coords, EltTy.bits .f32 = 32 ∨ (Rect.block (s := S5x20x20) S5x20x20.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5x1024.size a ≤ S5x32768.size a
  hwx0_11 : ∀ i : grid0.Coords, EltTy.bits .f32 = 32 ∨ (Rect.block (s := S5x32768) S5x1024.size (cc0_transform_11 i) (hinb0_11 i)).WholeWords (EltTy.packing .f32)

variable [Facts₀]

def dot_S1024x512_S512x20_S1024x20_1_0_0_1_n_n : DotDims S1024x512 S512x20 S1024x20 where
  lhsContracting := [1]
  rhsContracting := [0]
  lhsNonContracting := [0]
  rhsNonContracting := [1]
  lhsBatch := []
  rhsBatch := []
  wf := dot_S1024x512_S512x20_S1024x20_1_0_0_1_n_n_wf
def dot_S32768x5_S5x1_S32768x1_1_0_0_1_n_n : DotDims S32768x5 S5x1 S32768x1 where
  lhsContracting := [1]
  rhsContracting := [0]
  lhsNonContracting := [0]
  rhsNonContracting := [1]
  lhsBatch := []
  rhsBatch := []
  wf := dot_S32768x5_S5x1_S32768x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S5x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S5x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S5x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S5x20x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S5x20x20.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S5x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S20x512 : Shape := ⟨2, ![20, 512]⟩
abbrev S20 : Shape := ⟨1, ![20]⟩
abbrev S5x20 : Shape := ⟨2, ![5, 20]⟩
abbrev S5x20x20x2 : Shape := ⟨4, ![5, 20, 20, 2]⟩
abbrev S1x5 : Shape := ⟨2, ![1, 5]⟩
abbrev S1 : Shape := ⟨1, ![1]⟩
abbrev S512x20 : Shape := ⟨2, ![512, 20]⟩
abbrev S32768x20 : Shape := ⟨2, ![32768, 20]⟩
abbrev S1x20 : Shape := ⟨2, ![1, 20]⟩
abbrev S_ : Shape := ⟨0, ![]⟩
abbrev S32768x1x20 : Shape := ⟨3, ![32768, 1, 20]⟩
abbrev S1x5x20 : Shape := ⟨3, ![1, 5, 20]⟩
abbrev S32768x5x20 : Shape := ⟨3, ![32768, 5, 20]⟩
abbrev S32768x5x20x1 : Shape := ⟨4, ![32768, 5, 20, 1]⟩
abbrev S32768x5x1x20 : Shape := ⟨4, ![32768, 5, 1, 20]⟩
abbrev S32768x5x20x20 : Shape := ⟨4, ![32768, 5, 20, 20]⟩
abbrev S5x20x20x1 : Shape := ⟨4, ![5, 20, 20, 1]⟩
abbrev S5x20x20 : Shape := ⟨3, ![5, 20, 20]⟩
abbrev S1x5x20x20 : Shape := ⟨4, ![1, 5, 20, 20]⟩
abbrev S32768x5 : Shape := ⟨2, ![32768, 5]⟩
abbrev S5x1 : Shape := ⟨2, ![5, 1]⟩
abbrev S32768x1 : Shape := ⟨2, ![32768, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S20x512, .f32⟩
  | .hbm, ⟨2, _⟩ => ⟨S20, .f32⟩
  | .hbm, ⟨3, _⟩ => ⟨S5x20, .f32⟩
  | .hbm, ⟨4, _⟩ => ⟨S5x20, .f32⟩
  | .hbm, ⟨5, _⟩ => ⟨S5x20, .f32⟩
  | .hbm, ⟨6, _⟩ => ⟨S5x20, .f32⟩
  | .hbm, ⟨7, _⟩ => ⟨S5x20x20x2, .f32⟩
  | .hbm, ⟨8, _⟩ => ⟨S1x5, .f32⟩
  | .hbm, ⟨9, _⟩ => ⟨S1, .f32⟩
  | .hbm, ⟨10, _⟩ => ⟨S512x20, .f32⟩
  | .hbm, ⟨11, _⟩ => ⟨S32768x20, .f32⟩
  | .hbm, ⟨12, _⟩ => ⟨S1x20, .f32⟩
  | .hbm, ⟨13, _⟩ => ⟨S32768x20, .f32⟩
  | .hbm, ⟨14, _⟩ => ⟨S32768x20, .f32⟩
  | .hbm, ⟨15, _⟩ => ⟨S_, .f32⟩
  | .hbm, ⟨16, _⟩ => ⟨S32768x20, .f32⟩
  | .hbm, ⟨17, _⟩ => ⟨S32768x20, .f32⟩
  | .hbm, ⟨18, _⟩ => ⟨S32768x1x20, .f32⟩
  | .hbm, ⟨19, _⟩ => ⟨S1x5x20, .f32⟩
  | .hbm, ⟨20, _⟩ => ⟨S1x5x20, .f32⟩
  | .hbm, ⟨21, _⟩ => ⟨S32768x5x20, .f32⟩
  | .hbm, ⟨22, _⟩ => ⟨S32768x5x20, .f32⟩
  | .hbm, ⟨23, _⟩ => ⟨S32768x5x20, .f32⟩
  | .hbm, ⟨24, _⟩ => ⟨S32768x5x20, .f32⟩
  | .hbm, ⟨25, _⟩ => ⟨S32768x5x20, .f32⟩
  | .hbm, ⟨26, _⟩ => ⟨S_, .f32⟩
  | .hbm, ⟨27, _⟩ => ⟨S32768x5x20, .f32⟩
  | .hbm, ⟨28, _⟩ => ⟨S32768x5x20, .f32⟩
  | .hbm, ⟨29, _⟩ => ⟨S32768x5x20, .f32⟩
  | .hbm, ⟨30, _⟩ => ⟨S1x5x20, .f32⟩
  | .hbm, ⟨31, _⟩ => ⟨S32768x5x20, .f32⟩
  | .hbm, ⟨32, _⟩ => ⟨S32768x5x20, .f32⟩
  | .hbm, ⟨33, _⟩ => ⟨S_, .f32⟩
  | .hbm, ⟨34, _⟩ => ⟨S32768x5x20, .f32⟩
  | .hbm, ⟨35, _⟩ => ⟨S32768x5x20, .f32⟩
  | .hbm, ⟨36, _⟩ => ⟨S32768x1x20, .f32⟩
  | .hbm, ⟨37, _⟩ => ⟨S1x5x20, .f32⟩
  | .hbm, ⟨38, _⟩ => ⟨S1x5x20, .f32⟩
  | .hbm, ⟨39, _⟩ => ⟨S32768x5x20, .f32⟩
  | .hbm, ⟨40, _⟩ => ⟨S32768x5x20, .f32⟩
  | .hbm, ⟨41, _⟩ => ⟨S32768x5x20, .f32⟩
  | .hbm, ⟨42, _⟩ => ⟨S32768x5x20, .f32⟩
  | .hbm, ⟨43, _⟩ => ⟨S32768x5x20, .f32⟩
  | .hbm, ⟨44, _⟩ => ⟨S_, .f32⟩
  | .hbm, ⟨45, _⟩ => ⟨S32768x5x20, .f32⟩
  | .hbm, ⟨46, _⟩ => ⟨S32768x5x20, .f32⟩
  | .hbm, ⟨47, _⟩ => ⟨S32768x5x20, .f32⟩
  | .hbm, ⟨48, _⟩ => ⟨S1x5x20, .f32⟩
  | .hbm, ⟨49, _⟩ => ⟨S32768x5x20, .f32⟩
  | .hbm, ⟨50, _⟩ => ⟨S32768x5x20, .f32⟩
  | .hbm, ⟨51, _⟩ => ⟨S_, .f32⟩
  | .hbm, ⟨52, _⟩ => ⟨S32768x5x20, .f32⟩
  | .hbm, ⟨53, _⟩ => ⟨S32768x5x20, .f32⟩
  | .hbm, ⟨54, _⟩ => ⟨S32768x5x20x1, .f32⟩
  | .hbm, ⟨55, _⟩ => ⟨S32768x5x1x20, .f32⟩
  | .hbm, ⟨56, _⟩ => ⟨S32768x5x20x20, .f32⟩
  | .hbm, ⟨57, _⟩ => ⟨S32768x5x20x20, .f32⟩
  | .hbm, ⟨58, _⟩ => ⟨S32768x5x20x20, .f32⟩
  | .hbm, ⟨59, _⟩ => ⟨S32768x5x20x1, .f32⟩
  | .hbm, ⟨60, _⟩ => ⟨S32768x5x1x20, .f32⟩
  | .hbm, ⟨61, _⟩ => ⟨S32768x5x20x20, .f32⟩
  | .hbm, ⟨62, _⟩ => ⟨S32768x5x20x20, .f32⟩
  | .hbm, ⟨63, _⟩ => ⟨S32768x5x20x20, .f32⟩
  | .hbm, ⟨64, _⟩ => ⟨S5x20x20x1, .f32⟩
  | .hbm, ⟨65, _⟩ => ⟨S5x20x20, .f32⟩
  | .hbm, ⟨66, _⟩ => ⟨S1x5x20x20, .f32⟩
  | .hbm, ⟨67, _⟩ => ⟨S32768x5x20x20, .f32⟩
  | .hbm, ⟨68, _⟩ => ⟨S32768x5x20x20, .f32⟩
  | .hbm, ⟨69, _⟩ => ⟨S5x20x20x1, .f32⟩
  | .hbm, ⟨70, _⟩ => ⟨S5x20x20, .f32⟩
  | .hbm, ⟨71, _⟩ => ⟨S1x5x20x20, .f32⟩
  | .hbm, ⟨72, _⟩ => ⟨S32768x5x20x20, .f32⟩
  | .hbm, ⟨73, _⟩ => ⟨S32768x5x20x20, .f32⟩
  | .hbm, ⟨74, _⟩ => ⟨S32768x5x20x20, .f32⟩
  | .hbm, ⟨75, _⟩ => ⟨S32768x5x20x20, .f32⟩
  | .hbm, ⟨76, _⟩ => ⟨S32768x5x20x20, .i1⟩
  | .hbm, ⟨77, _⟩ => ⟨S32768x5x20x20, .f32⟩
  | .hbm, ⟨78, _⟩ => ⟨S32768x5x20x20, .f32⟩
  | .hbm, ⟨79, _⟩ => ⟨S32768x5x20x20, .f32⟩
  | .hbm, ⟨80, _⟩ => ⟨S32768x5x20x20, .f32⟩
  | .hbm, ⟨81, _⟩ => ⟨S32768x5x20x20, .f32⟩
  | .hbm, ⟨82, _⟩ => ⟨S32768x5x20x20, .f32⟩
  | .hbm, ⟨83, _⟩ => ⟨S32768x5x20x20, .f32⟩
  | .hbm, ⟨84, _⟩ => ⟨S_, .f32⟩
  | .hbm, ⟨85, _⟩ => ⟨S32768x5, .f32⟩
  | .hbm, ⟨86, _⟩ => ⟨S32768x5, .f32⟩
  | .hbm, ⟨87, _⟩ => ⟨S32768x5, .f32⟩
  | .hbm, ⟨88, _⟩ => ⟨S_, .f32⟩
  | .hbm, ⟨89, _⟩ => ⟨S_, .f32⟩
  | .hbm, ⟨90, _⟩ => ⟨S32768x5, .f32⟩
  | .hbm, ⟨91, _⟩ => ⟨S32768x5, .f32⟩
  | .hbm, ⟨92, _⟩ => ⟨S5x1, .f32⟩
  | .hbm, ⟨93, _⟩ => ⟨S32768x1, .f32⟩
  | .hbm, ⟨94, _⟩ => ⟨S1x1, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_3 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_4 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_v81 : Ref sig .tc := ⟨.hbm, 100, rfl⟩
abbrev main_v82 : Ref sig .tc := ⟨.hbm, 101, rfl⟩
abbrev main_cst_6 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]

class Facts₀ : Prop where
  transposes_S20x512_S512x20_1_0 : S20x512.Transposes [1, 0] S512x20
  bcast_S20_S1x20_1 : S20.BroadcastsInDim S1x20 (![1] : Fin 1 → Fin S1x20.rank)
  bcast_S1x20_S32768x20_0_1 : S1x20.BroadcastsInDim S32768x20 (![0, 1] : Fin 2 → Fin S32768x20.rank)
  bcast_S_S32768x20 : S_.BroadcastsInDim S32768x20 (![] : Fin 0 → Fin S32768x20.rank)
  bcast_S32768x20_S32768x1x20_0_2 : S32768x20.BroadcastsInDim S32768x1x20 (![0, 2] : Fin 2 → Fin S32768x1x20.rank)
  bcast_S5x20_S1x5x20_1_2 : S5x20.BroadcastsInDim S1x5x20 (![1, 2] : Fin 2 → Fin S1x5x20.rank)
  bcast_S32768x1x20_S32768x5x20_0_1_2 : S32768x1x20.BroadcastsInDim S32768x5x20 (![0, 1, 2] : Fin 3 → Fin S32768x5x20.rank)
  bcast_S1x5x20_S32768x5x20_0_1_2 : S1x5x20.BroadcastsInDim S32768x5x20 (![0, 1, 2] : Fin 3 → Fin S32768x5x20.rank)
  bcast_S_S32768x5x20 : S_.BroadcastsInDim S32768x5x20 (![] : Fin 0 → Fin S32768x5x20.rank)
  bcast_S32768x5x20_S32768x5x20x1_0_1_2 : S32768x5x20.BroadcastsInDim S32768x5x20x1 (![0, 1, 2] : Fin 3 → Fin S32768x5x20x1.rank)
  bcast_S32768x5x20_S32768x5x1x20_0_1_3 : S32768x5x20.BroadcastsInDim S32768x5x1x20 (![0, 1, 3] : Fin 3 → Fin S32768x5x1x20.rank)
  bcast_S32768x5x20x1_S32768x5x20x20_0_1_2_3 : S32768x5x20x1.BroadcastsInDim S32768x5x20x20 (![0, 1, 2, 3] : Fin 4 → Fin S32768x5x20x20.rank)
  bcast_S32768x5x1x20_S32768x5x20x20_0_1_2_3 : S32768x5x1x20.BroadcastsInDim S32768x5x20x20 (![0, 1, 2, 3] : Fin 4 → Fin S32768x5x20x20.rank)
  slices_S5x20x20x2_S5x20x20x1_0_0_0_0 : S5x20x20x2.Slices ![0, 0, 0, 0] S5x20x20x1
  shapeCasts_S5x20x20x1_S5x20x20 : S5x20x20x1.ShapeCasts S5x20x20
  bcast_S5x20x20_S1x5x20x20_1_2_3 : S5x20x20.BroadcastsInDim S1x5x20x20 (![1, 2, 3] : Fin 3 → Fin S1x5x20x20.rank)
  bcast_S1x5x20x20_S32768x5x20x20_0_1_2_3 : S1x5x20x20.BroadcastsInDim S32768x5x20x20 (![0, 1, 2, 3] : Fin 4 → Fin S32768x5x20x20.rank)
  slices_S5x20x20x2_S5x20x20x1_0_0_0_1 : S5x20x20x2.Slices ![0, 0, 0, 1] S5x20x20x1
  reducesTo_S32768x5x20x20_S32768x5_d2_3 : S32768x5x20x20.ReducesTo [2, 3] S32768x5
  h_S_ : 0 < S_.numel
  reducesTo_S32768x5_S_d0_1 : S32768x5.ReducesTo [0, 1] S_
  bcast_S_S32768x5 : S_.BroadcastsInDim S32768x5 (![] : Fin 0 → Fin S32768x5.rank)
  transposes_S1x5_S5x1_1_0 : S1x5.Transposes [1, 0] S5x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S32768x512_S512x20_S32768x20_1_0_0_1_n_n_wf : DotDims.WF S32768x512 S512x20 S32768x20 [1] [0] [0] [1] [] []
  dot_S32768x5_S5x1_S32768x1_1_0_0_1_n_n_wf : DotDims.WF S32768x5 S5x1 S32768x1 [1] [0] [0] [1] [] []

variable [Facts₀]

def dot_S32768x512_S512x20_S32768x20_1_0_0_1_n_n : DotDims S32768x512 S512x20 S32768x20 where
  lhsContracting := [1]
  rhsContracting := [0]
  lhsNonContracting := [0]
  rhsNonContracting := [1]
  lhsBatch := []
  rhsBatch := []
  wf := dot_S32768x512_S512x20_S32768x20_1_0_0_1_n_n_wf
def dot_S32768x5_S5x1_S32768x1_1_0_0_1_n_n : DotDims S32768x5 S5x1 S32768x1 where
  lhsContracting := [1]
  rhsContracting := [0]
  lhsNonContracting := [0]
  rhsNonContracting := [1]
  lhsBatch := []
  rhsBatch := []
  wf := dot_S32768x5_S5x1_S32768x1_1_0_0_1_n_n_wf

class Facts : Prop extends Facts₀ where

variable [Facts]
-- ==== Proof.Spec.lean ====
/-
  The network both programs compute, written once over plain index functions.

  A batch row `x : Fin 512 → EReal` is sent through an affine map and a rectifier to twenty hidden units
  `h q = max (∑ k, x k · W q k + b q) 0`.  Each of five output nodes carries, per hidden unit `i`, two Gaussian
  leaves (mean `μ`, deviation `σ`) whose log-density at `h i` is
      `L = (-½ · z) · z - log σ - ½ log 2π`,   `z = (h i - μ) / σ`.
  A pair `(i, j)` of hidden units forms two product nodes `L₀ i + L₀ j`, `L₁ i + L₁ j`, mixed in log space with the
  weights `lw₀ i j`, `lw₁ i j` by `log (eᵃ + eᵇ)`; the root is the sum of the 400 mixtures and the node's value is
  `log (- root)`.

  The two programs differ in the leaf only.  One divides, `z = (h - μ) / σ`, and subtracts `log σ` and the constant in
  turn; the other multiplies by the reciprocal, `z = h · (1/σ) - μ · (1/σ)`, and adds the pre-combined constant
  `(- log σ) - ½ log 2π`.  On the reals with `σ ≠ 0` these are one number (distributivity and associativity); at
  `σ = 0` the extended reals separate them, which is why the leaves are compared under `0 < σ`.
-/
import Idealize.ShloMosaic.PureOps.Ideal
import Idealize.ShloMosaic.PureOps.Ideal.Laws
import Idealize.ShloMosaic.Lib.ValueIdx
import Idealize.ShloMosaic.Lib.IdealHost

noncomputable section

namespace Cert.SumProduct

open Idealize.ShloMosaic

/-- The literal `-0.5`, as its word. -/
def negHalf : EReal := Ideal.ofBits .f32 0xBF000000#32
/-- The literal `½ log 2π` rounded to a float, as its word. -/
def halfLog2Pi : EReal := Ideal.ofBits .f32 0x3F6B3F8E#32

/-- A hidden unit: the rectified affine image of one batch row. -/
def hidden (x : Fin 512 → EReal) (w : Fin 512 → EReal) (b : EReal) : EReal :=
  max ((∑ k : Fin 512, x k * w k) + b) 0

/-- A leaf's log-density in the reciprocal form: `inv = 1/σ`, `mi = μ/σ`, `c = -log σ - ½ log 2π` given. -/
def leafMul (h inv mi c : EReal) : EReal :=
  (negHalf * (h * inv - mi)) * (h * inv - mi) + c

/-- The reciprocal of a deviation. -/
def recip (s : EReal) : EReal := Ideal.div 1 s
/-- A mean over its deviation, as the product with the reciprocal. -/
def meanOver (mu s : EReal) : EReal := mu * recip s
/-- The normalising constant of a leaf. -/
def logNorm (s : EReal) : EReal := (-(Ideal.log s)) - halfLog2Pi

/-- A leaf's log-density in the quotient form. -/
def leafDiv (h mu s : EReal) : EReal :=
  ((negHalf * Ideal.div (h - mu) s) * Ideal.div (h - mu) s - Ideal.log s) - halfLog2Pi

/-- `log (eᵃ + eᵇ)` in its stable form `max a b + log (1 + e^{-|a-b|})`. -/
def logAddExp (a b : EReal) : EReal :=
  max a b + Ideal.log1p (Ideal.exp (-(max (a - b) (-(a - b)))))

/-- The root of one output node over its twenty leaves' log-densities: the sum over pairs of the mixtures. -/
def root (lw0 lw1 : Fin 20 → Fin 20 → EReal) (L0 L1 : Fin 20 → EReal) : EReal :=
  ∑ j : Fin 20, ∑ i : Fin 20, logAddExp (lw0 i j + (L0 i + L0 j)) (lw1 i j + (L1 i + L1 j))

/-- An output node's value from its root. -/
def nodeValue (r : EReal) : EReal := Ideal.log (-r)

/-- An output node in the reciprocal form, from the hidden units and the six precomputed constant rows. -/
def nodeMul (h inv0 mi0 c0 inv1 mi1 c1 : Fin 20 → EReal) (lw0 lw1 : Fin 20 → Fin 20 → EReal) : EReal :=
  nodeValue (root lw0 lw1 (fun i => leafMul (h i) (inv0 i) (mi0 i) (c0 i)) (fun i => leafMul (h i) (inv1 i) (mi1 i) (c1 i)))

/-- An output node in the quotient form, from the hidden units and the leaves' means and deviations. -/
def nodeDiv (h mu0 s0 mu1 s1 : Fin 20 → EReal) (lw0 lw1 : Fin 20 → Fin 20 → EReal) : EReal :=
  nodeValue (root lw0 lw1 (fun i => leafDiv (h i) (mu0 i) (s0 i)) (fun i => leafDiv (h i) (mu1 i) (s1 i)))

end Cert.SumProduct

end
-- ==== Proof.KernelArrays.lean ====
/-
  The arrays the region finds, read at an index.

  Before the region the program prepares, on the host, the eleven arrays its grid points read: the batch and the first
  layer's weights untouched; the bias viewed as one row; per output node and hidden unit the reciprocal deviation
  `1/σ`, the mean over the deviation `μ · (1/σ)` and the normalising constant `(- log σ) - ½ log 2π` of each of the two
  leaf families; and the two mixture-weight tables, the last axis of the weights' array split in two.  Each is read
  here at an index, in the vocabulary of the specification.
-/
import proofs.«162536_j12068858101769_2_alg».proof.Proof.Gen.KernelIdeal.Frame
import proofs.«162536_j12068858101769_2_alg».proof.Proof.Spec
import Idealize.ShloMosaic.Lib.Pipeline.Value
import Idealize.ShloMosaic.Lib.ValueLayout
import Idealize.ShloMosaic.Lib.Tactic

noncomputable section

namespace Cert.SumProduct.Kernel

open Idealize.ShloMosaic Idealize.ShloMosaic.TcCoe Idealize.ShloMosaic.ValueIdx Idealize.SL.Sem
open Cert.KernelIdeal Cert.KernelIdeal.Gen Cert.SumProduct

variable (m : (ℓ : Loc nD τ sig) → Buf (Elt Ideal) ℓ)

/-! ## The arguments as launched -/

/-- The batch, `[32768, 512]`. -/
abbrev X0 (c : Dev nD) : S32768x512.Idx → EReal := m ((c : Thread nD τ).loc main_arg0)
/-- The first layer's weights, `[20, 512]`. -/
abbrev X1 (c : Dev nD) : S20x512.Idx → EReal := m ((c : Thread nD τ).loc main_arg1)
/-- The first layer's bias, `[20]`. -/
abbrev X2 (c : Dev nD) : S20.Idx → EReal := m ((c : Thread nD τ).loc main_arg2)
/-- The first leaf family's means, `[5, 20]`. -/
abbrev X3 (c : Dev nD) : S5x20.Idx → EReal := m ((c : Thread nD τ).loc main_arg3)
/-- The first leaf family's deviations, `[5, 20]`. -/
abbrev X4 (c : Dev nD) : S5x20.Idx → EReal := m ((c : Thread nD τ).loc main_arg4)
/-- The second leaf family's means, `[5, 20]`. -/
abbrev X5 (c : Dev nD) : S5x20.Idx → EReal := m ((c : Thread nD τ).loc main_arg5)
/-- The second leaf family's deviations, `[5, 20]`. -/
abbrev X6 (c : Dev nD) : S5x20.Idx → EReal := m ((c : Thread nD τ).loc main_arg6)
/-- The mixture weights in log space, `[5, 20, 20, 2]`. -/
abbrev X7 (c : Dev nD) : S5x20x20x2.Idx → EReal := m ((c : Thread nD τ).loc main_arg7)
/-- The output layer's weights, `[1, 5]`. -/
abbrev X8 (c : Dev nD) : S1x5.Idx → EReal := m ((c : Thread nD τ).loc main_arg8)
/-- The output layer's bias, `[1]`. -/
abbrev X9 (c : Dev nD) : S1.Idx → EReal := m ((c : Thread nD τ).loc main_arg9)

/-! ## Each prepared array as the term of the host operations that wrote it -/

theorem bias_term (c : Dev nD) :
    (V m c main_v0 : S1x20.Idx → EReal) = shapeCast S1x20 (X2 m c) shapeCasts_S20_S1x20 := by
  show StableHlo.after hostOps0 (fun b => m (c, b)) (Proc.devRef .tc main_v0) = _
  after_results
  rfl

theorem recip0_term (c : Dev nD) :
    (V m c main_v6 : S5x20.Idx → EReal)
      = Host.divf (F := Ideal) (broadcastInDim S5x20 ![] bcast_S_S5x20 (constant (F := Ideal) S_ .f32 0x3F800000#32)) (X4 m c) := by
  show StableHlo.after hostOps0 (fun b => m (c, b)) (Proc.devRef .tc main_v6) = _
  after_results

theorem recip1_term (c : Dev nD) :
    (V m c main_v8 : S5x20.Idx → EReal)
      = Host.divf (F := Ideal) (broadcastInDim S5x20 ![] bcast_S_S5x20 (constant (F := Ideal) S_ .f32 0x3F800000#32)) (X6 m c) := by
  show StableHlo.after hostOps0 (fun b => m (c, b)) (Proc.devRef .tc main_v8) = _
  after_results

theorem meanOver0_term (c : Dev nD) :
    (V m c main_v9 : S5x20.Idx → EReal)
      = mulf (X3 m c) (Host.divf (F := Ideal) (broadcastInDim S5x20 ![] bcast_S_S5x20 (constant (F := Ideal) S_ .f32 0x3F800000#32)) (X4 m c)) := by
  show StableHlo.after hostOps0 (fun b => m (c, b)) (Proc.devRef .tc main_v9) = _
  after_results

theorem meanOver1_term (c : Dev nD) :
    (V m c main_v10 : S5x20.Idx → EReal)
      = mulf (X5 m c) (Host.divf (F := Ideal) (broadcastInDim S5x20 ![] bcast_S_S5x20 (constant (F := Ideal) S_ .f32 0x3F800000#32)) (X6 m c)) := by
  show StableHlo.after hostOps0 (fun b => m (c, b)) (Proc.devRef .tc main_v10) = _
  after_results

theorem logNorm0_term (c : Dev nD) :
    (V m c main_v14 : S5x20.Idx → EReal)
      = subf (Host.negf (F := Ideal) (Host.log (F := Ideal) (X4 m c))) (broadcastInDim S5x20 ![] bcast_S_S5x20 (constant (F := Ideal) S_ .f32 0x3F6B3F8E#32)) := by
  show StableHlo.after hostOps0 (fun b => m (c, b)) (Proc.devRef .tc main_v14) = _
  after_results

theorem logNorm1_term (c : Dev nD) :
    (V m c main_v18 : S5x20.Idx → EReal)
      = subf (Host.negf (F := Ideal) (Host.log (F := Ideal) (X6 m c))) (broadcastInDim S5x20 ![] bcast_S_S5x20 (constant (F := Ideal) S_ .f32 0x3F6B3F8E#32)) := by
  show StableHlo.after hostOps0 (fun b => m (c, b)) (Proc.devRef .tc main_v18) = _
  after_results

theorem weights0_term (c : Dev nD) :
    (V m c main_v2 : S5x20x20.Idx → EReal)
      = shapeCast S5x20x20 (extractStridedSlice S5x20x20x1 ![0, 0, 0, 0] (X7 m c) slices_S5x20x20x2_S5x20x20x1_0_0_0_0) shapeCasts_S5x20x20x1_S5x20x20 := by
  show StableHlo.after hostOps0 (fun b => m (c, b)) (Proc.devRef .tc main_v2) = _
  after_results
  rfl

theorem weights1_term (c : Dev nD) :
    (V m c main_v4 : S5x20x20.Idx → EReal)
      = shapeCast S5x20x20 (extractStridedSlice S5x20x20x1 ![0, 0, 0, 1] (X7 m c) slices_S5x20x20x2_S5x20x20x1_0_0_0_1) shapeCasts_S5x20x20x1_S5x20x20 := by
  show StableHlo.after hostOps0 (fun b => m (c, b)) (Proc.devRef .tc main_v4) = _
  after_results
  rfl

/-! ## Read at an index -/

/-- The bias row: its one row is the bias. -/
theorem bias_at (c : Dev nD) (q : Fin 20) :
    (V m c main_v0 : S1x20.Idx → EReal) (ix2 (0 : Fin 1) q) = X2 m c (ix1 q) := by
  rw [bias_term]
  refine shapeCast_apply _ _ _ _ ?_
  rw [Shape.rowMajor_val_one, Shape.rowMajor_val_two]
  show q.val = 0 * 20 + q.val
  omega

/-- The first family's reciprocal deviations. -/
theorem recip0_at (c : Dev nD) (o : Fin 5) (i : Fin 20) :
    (V m c main_v6 : S5x20.Idx → EReal) (ix2 o i) = recip (X4 m c (ix2 o i)) := by
  rw [recip0_term, hostDivf_apply, broadcastInDim_scalar_apply, constant_apply, Ideal.ofBits_one_f32]
  rfl

/-- The second family's reciprocal deviations. -/
theorem recip1_at (c : Dev nD) (o : Fin 5) (i : Fin 20) :
    (V m c main_v8 : S5x20.Idx → EReal) (ix2 o i) = recip (X6 m c (ix2 o i)) := by
  rw [recip1_term, hostDivf_apply, broadcastInDim_scalar_apply, constant_apply, Ideal.ofBits_one_f32]
  rfl

/-- The first family's means over their deviations. -/
theorem meanOver0_at (c : Dev nD) (o : Fin 5) (i : Fin 20) :
    (V m c main_v9 : S5x20.Idx → EReal) (ix2 o i) = meanOver (X3 m c (ix2 o i)) (X4 m c (ix2 o i)) := by
  rw [meanOver0_term, mulf_apply, hostDivf_apply, broadcastInDim_scalar_apply, constant_apply, Ideal.ofBits_one_f32]
  rfl

/-- The second family's means over their deviations. -/
theorem meanOver1_at (c : Dev nD) (o : Fin 5) (i : Fin 20) :
    (V m c main_v10 : S5x20.Idx → EReal) (ix2 o i) = meanOver (X5 m c (ix2 o i)) (X6 m c (ix2 o i)) := by
  rw [meanOver1_term, mulf_apply, hostDivf_apply, broadcastInDim_scalar_apply, constant_apply, Ideal.ofBits_one_f32]
  rfl

/-- The first family's normalising constants. -/
theorem logNorm0_at (c : Dev nD) (o : Fin 5) (i : Fin 20) :
    (V m c main_v14 : S5x20.Idx → EReal) (ix2 o i) = logNorm (X4 m c (ix2 o i)) := by
  rw [logNorm0_term, subf_apply, broadcastInDim_scalar_apply, constant_apply]
  rfl

/-- The second family's normalising constants. -/
theorem logNorm1_at (c : Dev nD) (o : Fin 5) (i : Fin 20) :
    (V m c main_v18 : S5x20.Idx → EReal) (ix2 o i) = logNorm (X6 m c (ix2 o i)) := by
  rw [logNorm1_term, subf_apply, broadcastInDim_scalar_apply, constant_apply]
  rfl

/-- The first mixture-weight table: the weights' last axis at `0`. -/
theorem weights0_at (c : Dev nD) (o : Fin 5) (i j : Fin 20) :
    (V m c main_v2 : S5x20x20.Idx → EReal) (ix3 o i j) = X7 m c (ix4 o i j (0 : Fin 2)) := by
  rw [weights0_term]
  refine (shapeCast_apply _ _ (ix3 o i j) (ix4 o i j (0 : Fin 1)) ?_).trans ?_
  · rw [Shape.rowMajor_val_three, Shape.rowMajor_val_four]
    show ((o.val * 20 + i.val) * 20 + j.val) * 1 + 0 = (o.val * 20 + i.val) * 20 + j.val
    omega
  · refine extractStridedSlice_apply _ _ _ _ _ fun a => ?_
    match a with
    | ⟨0, _⟩ => show o.val = 0 + o.val; omega
    | ⟨1, _⟩ => show i.val = 0 + i.val; omega
    | ⟨2, _⟩ => show j.val = 0 + j.val; omega
    | ⟨3, _⟩ => show 0 = 0 + 0; omega

/-- The second mixture-weight table: the weights' last axis at `1`. -/
theorem weights1_at (c : Dev nD) (o : Fin 5) (i j : Fin 20) :
    (V m c main_v4 : S5x20x20.Idx → EReal) (ix3 o i j) = X7 m c (ix4 o i j (1 : Fin 2)) := by
  rw [weights1_term]
  refine (shapeCast_apply _ _ (ix3 o i j) (ix4 o i j (0 : Fin 1)) ?_).trans ?_
  · rw [Shape.rowMajor_val_three, Shape.rowMajor_val_four]
    show ((o.val * 20 + i.val) * 20 + j.val) * 1 + 0 = (o.val * 20 + i.val) * 20 + j.val
    omega
  · refine extractStridedSlice_apply _ _ _ _ _ fun a => ?_
    match a with
    | ⟨0, _⟩ => show o.val = 0 + o.val; omega
    | ⟨1, _⟩ => show i.val = 0 + i.val; omega
    | ⟨2, _⟩ => show j.val = 0 + j.val; omega
    | ⟨3, _⟩ => show 1 = 1 + 0; omega

end Cert.SumProduct.Kernel

end
-- ==== Proof.LibPairLayout.lean ====
/-
  Layout operations a pairwise table goes through, read at an index.

  A table over pairs `(i, j)` of rows of one `[a, b]` matrix is built by casting the matrix to `[a, 1, b]` and to
  `[1, a, b]` and repeating each along the unit axis: at `(i, j, r)` the first reads row `i`, the second row `j`.  A
  `[a, b]` table of weights is given a trailing unit axis and repeated along it.  Sums over the leading axis of the
  rank-three and rank-two results are plain sums over that axis's coordinate.
-/
import Idealize.ShloMosaic.Lib.Pipeline.Value
import Idealize.ShloMosaic.Lib.ValueIdx
import Idealize.ShloMosaic.PureOps.Ideal.Laws

namespace Idealize.ShloMosaic.ValueIdx

variable {α : Type}

/-- An `[a, b]` array cast to `[a, 1, b]` reads, at `(i, u, j)`, the operand at `(i, j)`: in row-major order the
    position is `(i · 1 + u) · b + j = i · b + j`, the unit coordinate being `0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array repeated along its unit axis to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, a, b]` array repeated along its unit axis to `[c, a, b]` reads, at `(k, i, j)`, the operand at `(0, i, j)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[a, b, 1]` array repeated along its unit axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- At the exact values, the sum over the leading axis of an `[a, b, c]` array, read at `(j, r)`, is the sum over `k` of
    the entries `(k, j, r)`. -/
theorem sum_leading_of3 {a b c : ℕ} {φ : FTy} (src : FVec Ideal ⟨3, ![a, b, c]⟩ φ) (acc : BitVec φ.bits)
    (h : (⟨3, ![a, b, c]⟩ : Shape).Reduces [(0 : Fin 3)] ⟨2, ![b, c]⟩) (hφ : FKind.Formats φ)
    (hacc : acc = FKind.add.neutral φ hφ) (j : Fin b) (r : Fin c) :
    multiReduction .add [(0 : Fin 3)] ⟨2, ![b, c]⟩ src acc h hφ hacc (ix2 j r) = ∑ k : Fin a, src (ix3 k j r) := by
  rw [Ideal.multiReduction_add_single]
  refine Finset.sum_congr rfl fun k _ => congrArg src ?_
  funext d
  apply Fin.ext
  match d with
  | ⟨0, _⟩ => rfl
  | ⟨1, _⟩ => rfl
  | ⟨2, _⟩ => rfl

/-- At the exact values, the sum over the leading axis of an `[a, b]` array, read at `r`, is the sum over `k` of the
    entries `(k, r)`. -/
theorem sum_leading_of2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (r : Fin b) :
    multiReduction .add [(0 : Fin 2)] ⟨1, ![b]⟩ src acc h hφ hacc (ix1 r) = ∑ k : Fin a, src (ix2 k r) := by
  rw [Ideal.multiReduction_add_single]
  refine Finset.sum_congr rfl fun k _ => congrArg src ?_
  funext d
  apply Fin.ext
  match d with
  | ⟨0, _⟩ => rfl
  | ⟨1, _⟩ => rfl

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.RowParts.lean ====
/-
  The pieces every stored row of the output block is made of, each read at an index: the transposed hidden layer,
  the table rows kept as columns and repeated over the batch, the leaves' table repeated over either member of a
  pair, the weight tables repeated over the batch, the two sums over the members of a pair, and the mixture.
-/
import proofs.«162536_j12068858101769_2_alg».proof.Proof.Gen.KernelIdeal.Skeleton
import proofs.«162536_j12068858101769_2_alg».proof.Proof.Spec
import proofs.«162536_j12068858101769_2_alg».proof.Proof.LibPairLayout
import proofs.«162536_j12068858101769_2_alg».proof.Proof.LibKeepdims
import proofs.«162536_j12068858101769_2_alg».proof.Proof.LibDense
import Idealize.ShloMosaic.Lib.ValueLayout
import Idealize.ShloMosaic.Lib.IdealHost

set_option maxRecDepth 16384

noncomputable section

namespace Cert.SumProduct.Kernel

open Cert.KernelIdeal Cert.KernelIdeal.Gen Idealize.ShloMosaic Idealize.ShloMosaic.ValueIdx Cert.SumProduct

/-- The kernel's product reads its left operand at (row, position) … -/
theorem dotK_l0 (i : S1024x20.Idx) (q : dot_S1024x512_S512x20_S1024x20_1_0_0_1_n_n.contr.Idx) :
    (dot_S1024x512_S512x20_S1024x20_1_0_0_1_n_n.lhsIdx i q 0).val = (i 0).val := by
  unfold DotDims.lhsIdx
  rw [dif_neg (show ¬(0 : Fin S1024x512.rank) ∈ dot_S1024x512_S512x20_S1024x20_1_0_0_1_n_n.lhsBatch by decide), dif_pos (show (0 : Fin S1024x512.rank) ∈ dot_S1024x512_S512x20_S1024x20_1_0_0_1_n_n.lhsNonContracting by decide)]
  rfl
theorem dotK_l1 (i : S1024x20.Idx) (q : dot_S1024x512_S512x20_S1024x20_1_0_0_1_n_n.contr.Idx) :
    (dot_S1024x512_S512x20_S1024x20_1_0_0_1_n_n.lhsIdx i q 1).val = (q ⟨0, by decide⟩).val :=
  dot_S1024x512_S512x20_S1024x20_1_0_0_1_n_n.lhsIdx_val_of_single rfl i q
/-- … and its right operand at (position, column). -/
theorem dotK_r0 (i : S1024x20.Idx) (q : dot_S1024x512_S512x20_S1024x20_1_0_0_1_n_n.contr.Idx) :
    (dot_S1024x512_S512x20_S1024x20_1_0_0_1_n_n.rhsIdx i q 0).val = (q ⟨0, by decide⟩).val :=
  dot_S1024x512_S512x20_S1024x20_1_0_0_1_n_n.rhsIdx_val_of_single rfl i q
theorem dotK_r1 (i : S1024x20.Idx) (q : dot_S1024x512_S512x20_S1024x20_1_0_0_1_n_n.contr.Idx) :
    (dot_S1024x512_S512x20_S1024x20_1_0_0_1_n_n.rhsIdx i q 1).val = (i 1).val := by
  unfold DotDims.rhsIdx
  rw [dif_neg (show ¬(1 : Fin S512x20.rank) ∈ dot_S1024x512_S512x20_S1024x20_1_0_0_1_n_n.rhsBatch by decide), dif_pos (show (1 : Fin S512x20.rank) ∈ dot_S1024x512_S512x20_S1024x20_1_0_0_1_n_n.rhsNonContracting by decide)]
  rfl

/-- The transposed hidden layer: entry `(q, r)` is hidden unit `q` of batch row `r` of the block. -/
theorem hT_at (v0 : Vec Ideal S1024x512 .f32) (v2 : Vec Ideal S20x512 .f32) (v6 : Vec Ideal S1x20 .f32) (q : Fin 20) (r : Fin 1024) :
    k0_pay1 (F := Ideal) v0 v2 v6 (ix2 q r) = hidden (fun k => v0 (ix2 r k)) (fun k => v2 (ix2 q k)) (v6 (ix2 (0 : Fin 1) q)) := by
  unfold k0_pay1 hidden
  refine (transpose_ix2_apply (a := 1024) (b := 20) _ _ q r).trans ?_
  refine congrArg₂ max (congrArg₂ (· + ·) ?_ ?_) ?_
  · refine (matmul_zero_plain_apply (n := 1024) (K := 512) (h := 20) dot_S1024x512_S512x20_S1024x20_1_0_0_1_n_n none rfl rfl
      dotK_l0 dotK_l1 dotK_r0 dotK_r1 _ _ r q).trans ?_
    refine Finset.sum_congr rfl fun k _ => congrArg₂ (· * ·) rfl ?_
    exact transpose_ix2_apply (a := 20) (b := 512) _ _ k q
  · refine (broadcastTo_1b_ab_apply (a := 1024) (b := 20) _ _ r q).trans ?_
    rw [shapeCast_self]
  · exact Ideal.ofBits_zero_f32

/-! ## The layout chains of the body, read at an index -/

/-- A table row kept as a column and repeated over the batch: entry `(i, r)` is the row's entry `i`. -/
theorem col_at (a : FVec Ideal S1x20 .f32) (i : Fin 20) (r : Fin 1024) :
    broadcastTo S20x1024 (shapeCast S20x1 (shapeCast S20 a shapeCasts_S1x20_S20) shapeCasts_S20_S20x1) broadcasts_S20x1_S20x1024 (ix2 i r)
      = a (ix2 (0 : Fin 1) i) :=
  (broadcastTo_a1_ab_apply (a := 20) (b := 1024) _ _ i r).trans
    ((shapeCast_a_a1_apply (a := 20) _ _ i 0).trans (shapeCast_1a_a_apply (a := 20) _ _ i))

/-- The leaves' table repeated over the second member of a pair: entry `(i, j, r)` is leaf `i` of batch row `r`. -/
theorem pairL_at (L : FVec Ideal S20x1024 .f32) (i j : Fin 20) (r : Fin 1024) :
    broadcastTo S20x20x1024 (shapeCast S20x1x1024 L shapeCasts_S20x1024_S20x1x1024) broadcasts_S20x1x1024_S20x20x1024 (ix3 i j r)
      = L (ix2 i r) :=
  (broadcastTo_a1b_acb_apply (a := 20) (b := 1024) (c := 20) _ _ i j r).trans
    (shapeCast_ab_a1b_apply (a := 20) (b := 1024) _ _ i 0 r)

/-- The leaves' table repeated over the first member of a pair: entry `(i, j, r)` is leaf `j` of batch row `r`. -/
theorem pairR_at (L : FVec Ideal S20x1024 .f32) (i j : Fin 20) (r : Fin 1024) :
    broadcastTo S20x20x1024 (shapeCast S1x20x1024 L shapeCasts_S20x1024_S1x20x1024) broadcasts_S1x20x1024_S20x20x1024 (ix3 i j r)
      = L (ix2 j r) :=
  (broadcastTo_1ab_cab_apply (a := 20) (b := 1024) (c := 20) _ _ i j r).trans
    (shapeCast_ab_1ab_apply (a := 20) (b := 1024) _ _ 0 j r)

/-- A node's weight table repeated over the batch: entry `(i, j, r)` is the weight of the pair `(i, j)`. -/
theorem lw_at (l : FVec Ideal S1x20x20 .f32) (i j : Fin 20) (r : Fin 1024) :
    broadcastTo S20x20x1024 (shapeCast S20x20x1 (shapeCast S20x20 l shapeCasts_S1x20x20_S20x20) shapeCasts_S20x20_S20x20x1)
        broadcasts_S20x20x1_S20x20x1024 (ix3 i j r)
      = l (ix3 (0 : Fin 1) i j) :=
  (broadcastTo_ab1_abc_apply (a := 20) (b := 20) (c := 1024) _ _ i j r).trans
    ((shapeCast_ab_ab1_apply (a := 20) (b := 20) _ _ i j 0).trans (shapeCast_1ab_ab_apply (a := 20) (b := 20) _ _ i j))

/-- The sum over the first member of the pairs. -/
theorem sumPairs_at (S : FVec Ideal S20x20x1024 .f32) (j : Fin 20) (r : Fin 1024) :
    multiReduction .add [0] S20x1024 S 0x00000000#32 reduces_S20x20x1024_S20x1024 (.inl rfl) rfl (ix2 j r)
      = ∑ i : Fin 20, S (ix3 i j r) :=
  sum_leading_of3 (a := 20) (b := 20) (c := 1024) S _ _ _ _ j r

/-- The sum over the remaining member. -/
theorem sumRows_at (S : FVec Ideal S20x1024 .f32) (r : Fin 1024) :
    multiReduction .add [0] S1024 S 0x00000000#32 reduces_S20x1024_S1024 (.inl rfl) rfl (ix1 r)
      = ∑ j : Fin 20, S (ix2 j r) :=
  sum_leading_of2 (a := 20) (b := 1024) S _ _ _ _ r

/-- The stored row: a vector over the batch written as a one-row matrix. -/
theorem stored_at (y : FVec Ideal S1024 .f32) (u : Fin 1) (r : Fin 1024) :
    shapeCast S1x1024 y shapeCasts_S1024_S1x1024 (ix2 u r) = y (ix1 r) :=
  shapeCast_a_1a_apply (a := 1024) y _ u r

/-! ## Elementwise operations at an index -/

theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl
theorem log1p_at {s : Shape} {φ : FTy} (v : FVec Ideal s φ) (i : s.Idx) : log1p v i = Ideal.log1p (v i) := rfl
theorem absf_at {s : Shape} {φ : FTy} (v : FVec Ideal s φ) (i : s.Idx) : absf v i = max (v i) (-(v i)) := rfl

/-- The mixture as the body computes it: a difference is never unequal to itself, so the guarded branch is not
    taken, and `0 - |d|` is `-|d|`. -/
theorem mix_at (A B : EReal) :
    Scalar.select (Ideal.cmp .one (A - B) (A - B)) (A + B)
        (max A B + Ideal.log1p (Ideal.exp (Ideal.ofBits .f32 0x00000000#32 - max (A - B) (-(A - B)))))
      = logAddExp A B := by
  have hc : Ideal.cmp .one (A - B) (A - B) = 0#1 := by simp [Ideal.cmp]
  rw [hc, Ideal.ofBits_zero_f32, zero_sub]
  rfl

/-- The value every stored row has: the node of the block's batch row `r`, from the node's own rows of the tables. -/
def rowNode (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (r : Fin 1024) : EReal :=
  nodeMul (fun q => hidden (fun k => v0 (ix2 r k)) (fun k => v2 (ix2 q k)) (v6 (ix2 (0 : Fin 1) q)))
    (fun i => a3 (ix2 (0 : Fin 1) i)) (fun i => a4 (ix2 (0 : Fin 1) i)) (fun i => a5 (ix2 (0 : Fin 1) i))
    (fun i => a6 (ix2 (0 : Fin 1) i)) (fun i => a7 (ix2 (0 : Fin 1) i)) (fun i => a8 (ix2 (0 : Fin 1) i))
    (fun i j => l9 (ix3 (0 : Fin 1) i j)) (fun i j => l10 (ix3 (0 : Fin 1) i j))

end Cert.SumProduct.Kernel

end
-- ==== Proof.Row0.lean ====
/-
  The first node's row of the output block.  The body computes it from the transposed hidden layer and the node's own rows of the
  six constant tables and the two weight tables; read at batch row `r` it is the node value in the reciprocal form:
  the stored row is the logarithm of minus the sum, over the pairs `(i, j)`, of the mixtures of the two product
  nodes, each product node the sum of two leaves.
-/
import proofs.«162536_j12068858101769_2_alg».proof.Proof.RowParts

set_option maxRecDepth 16384

noncomputable section

namespace Cert.SumProduct.Kernel

open Cert.KernelIdeal Cert.KernelIdeal.Gen Idealize.ShloMosaic Idealize.ShloMosaic.ValueIdx Cert.SumProduct

/-- The first node's row, at batch row `r`. -/
theorem row0 (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (u : Fin 1) (r : Fin 1024) :
    k0_pay8 (F := Ideal) (k0_pay7 (k0_pay1 v0 v2 v6) (k0_pay2 a5) (k0_pay3 a6) (k0_pay4 a7) (k0_pay5 a8) (k0_pay6 v0 v2 v6 a3 a4) l9 l10) (ix2 u r)
      = rowNode v0 v2 v6 a3 a4 a5 a6 a7 a8 l9 l10 r := by
  unfold k0_pay8 k0_pay7 k0_pay6 k0_pay5 k0_pay4 k0_pay3 k0_pay2 rowNode nodeMul nodeValue root
  refine (stored_at _ u r).trans ?_
  refine congrArg Ideal.log ?_
  refine (congrArg₂ (· - ·) Ideal.ofBits_zero_f32 ?_).trans (zero_sub _)
  refine (sumRows_at _ r).trans (Finset.sum_congr rfl fun j _ => ?_)
  refine (sumPairs_at _ j r).trans (Finset.sum_congr rfl fun i _ => ?_)
  simp only [stored_at, log_at, subf_apply, broadcast_apply, sumRows_at, sumPairs_at, select_apply, cmpf_apply, addf_apply, maximumf_apply, absf_at, exp_at, log1p_at, lw_at, pairL_at, pairR_at, mulf_apply, col_at, hT_at]
  exact mix_at _ _

end Cert.SumProduct.Kernel

end
-- ==== Proof.Row1.lean ====
/-
  The second node's row of the output block.  The body computes it from the transposed hidden layer and the node's own rows of the
  six constant tables and the two weight tables; read at batch row `r` it is the node value in the reciprocal form:
  the stored row is the logarithm of minus the sum, over the pairs `(i, j)`, of the mixtures of the two product
  nodes, each product node the sum of two leaves.
-/
import proofs.«162536_j12068858101769_2_alg».proof.Proof.RowParts

set_option maxRecDepth 16384

noncomputable section

namespace Cert.SumProduct.Kernel

open Cert.KernelIdeal Cert.KernelIdeal.Gen Idealize.ShloMosaic Idealize.ShloMosaic.ValueIdx Cert.SumProduct

/-- The second node's row, at batch row `r`. -/
theorem row1 (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (u : Fin 1) (r : Fin 1024) :
    k0_pay12 (F := Ideal) (k0_pay9 (k0_pay1 v0 v2 v6) a6 a7 a8) (k0_pay10 (k0_pay1 v0 v2 v6) a3 a4 a5) (k0_pay11 (k0_pay1 v0 v2 v6) a6 a7 a8) l9 l10 (ix2 u r)
      = rowNode v0 v2 v6 a3 a4 a5 a6 a7 a8 l9 l10 r := by
  unfold k0_pay12 k0_pay11 k0_pay10 k0_pay9 rowNode nodeMul nodeValue root
  refine (stored_at _ u r).trans ?_
  refine congrArg Ideal.log ?_
  refine (congrArg₂ (· - ·) Ideal.ofBits_zero_f32 ?_).trans (zero_sub _)
  refine (sumRows_at _ r).trans (Finset.sum_congr rfl fun j _ => ?_)
  refine (sumPairs_at _ j r).trans (Finset.sum_congr rfl fun i _ => ?_)
  simp only [stored_at, log_at, subf_apply, broadcast_apply, sumRows_at, sumPairs_at, select_apply, cmpf_apply, addf_apply, maximumf_apply, absf_at, exp_at, log1p_at, lw_at, pairL_at, pairR_at, mulf_apply, col_at, hT_at]
  exact mix_at _ _

end Cert.SumProduct.Kernel

end
-- ==== Proof.Row2.lean ====
/-
  The third node's row of the output block.  The body computes it from the transposed hidden layer and the node's own rows of the
  six constant tables and the two weight tables; read at batch row `r` it is the node value in the reciprocal form:
  the stored row is the logarithm of minus the sum, over the pairs `(i, j)`, of the mixtures of the two product
  nodes, each product node the sum of two leaves.
-/
import proofs.«162536_j12068858101769_2_alg».proof.Proof.RowParts

set_option maxRecDepth 16384

noncomputable section

namespace Cert.SumProduct.Kernel

open Cert.KernelIdeal Cert.KernelIdeal.Gen Idealize.ShloMosaic Idealize.ShloMosaic.ValueIdx Cert.SumProduct

/-- The third node's row, at batch row `r`. -/
theorem row2 (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (u : Fin 1) (r : Fin 1024) :
    k0_pay19 (F := Ideal) (k0_pay16 (k0_pay1 v0 v2 v6) a6 a7 a8) (k0_pay17 l10) (k0_pay18 (k0_pay1 v0 v2 v6) (k0_pay13 a3) (k0_pay14 a4) (k0_pay15 a5) l9) (ix2 u r)
      = rowNode v0 v2 v6 a3 a4 a5 a6 a7 a8 l9 l10 r := by
  unfold k0_pay19 k0_pay18 k0_pay17 k0_pay16 k0_pay15 k0_pay14 k0_pay13 rowNode nodeMul nodeValue root
  refine (stored_at _ u r).trans ?_
  refine congrArg Ideal.log ?_
  refine (congrArg₂ (· - ·) Ideal.ofBits_zero_f32 ?_).trans (zero_sub _)
  refine (sumRows_at _ r).trans (Finset.sum_congr rfl fun j _ => ?_)
  refine (sumPairs_at _ j r).trans (Finset.sum_congr rfl fun i _ => ?_)
  simp only [stored_at, log_at, subf_apply, broadcast_apply, sumRows_at, sumPairs_at, select_apply, cmpf_apply, addf_apply, maximumf_apply, absf_at, exp_at, log1p_at, lw_at, pairL_at, pairR_at, mulf_apply, col_at, hT_at]
  exact mix_at _ _

end Cert.SumProduct.Kernel

end
-- ==== Proof.Row3.lean ====
/-
  The fourth node's row of the output block.  The body computes it from the transposed hidden layer and the node's own rows of the
  six constant tables and the two weight tables; read at batch row `r` it is the node value in the reciprocal form:
  the stored row is the logarithm of minus the sum, over the pairs `(i, j)`, of the mixtures of the two product
  nodes, each product node the sum of two leaves.
-/
import proofs.«162536_j12068858101769_2_alg».proof.Proof.RowParts

set_option maxRecDepth 16384

noncomputable section

namespace Cert.SumProduct.Kernel

open Cert.KernelIdeal Cert.KernelIdeal.Gen Idealize.ShloMosaic Idealize.ShloMosaic.ValueIdx Cert.SumProduct

/-- The fourth node's row, at batch row `r`. -/
theorem row3 (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (u : Fin 1) (r : Fin 1024) :
    k0_pay27 (F := Ideal) (k0_pay26 (k0_pay1 v0 v2 v6) (k0_pay20 a4) (k0_pay21 a5) (k0_pay22 a6) (k0_pay23 a7) (k0_pay24 a8) (k0_pay25 (k0_pay1 v0 v2 v6) a3) l9 l10) (ix2 u r)
      = rowNode v0 v2 v6 a3 a4 a5 a6 a7 a8 l9 l10 r := by
  unfold k0_pay27 k0_pay26 k0_pay25 k0_pay24 k0_pay23 k0_pay22 k0_pay21 k0_pay20 rowNode nodeMul nodeValue root
  refine (stored_at _ u r).trans ?_
  refine congrArg Ideal.log ?_
  refine (congrArg₂ (· - ·) Ideal.ofBits_zero_f32 ?_).trans (zero_sub _)
  refine (sumRows_at _ r).trans (Finset.sum_congr rfl fun j _ => ?_)
  refine (sumPairs_at _ j r).trans (Finset.sum_congr rfl fun i _ => ?_)
  simp only [stored_at, log_at, subf_apply, broadcast_apply, sumRows_at, sumPairs_at, select_apply, cmpf_apply, addf_apply, maximumf_apply, absf_at, exp_at, log1p_at, lw_at, pairL_at, pairR_at, mulf_apply, col_at, hT_at]
  exact mix_at _ _

end Cert.SumProduct.Kernel

end
-- ==== Proof.Row4.lean ====
/-
  The fifth node's row of the output block.  The body computes it from the transposed hidden layer and the node's own rows of the
  six constant tables and the two weight tables; read at batch row `r` it is the node value in the reciprocal form:
  the stored row is the logarithm of minus the sum, over the pairs `(i, j)`, of the mixtures of the two product
  nodes, each product node the sum of two leaves.
-/
import proofs.«162536_j12068858101769_2_alg».proof.Proof.RowParts

set_option maxRecDepth 16384

noncomputable section

namespace Cert.SumProduct.Kernel

open Cert.KernelIdeal Cert.KernelIdeal.Gen Idealize.ShloMosaic Idealize.ShloMosaic.ValueIdx Cert.SumProduct

/-- The fifth node's row, at batch row `r`. -/
theorem row4 (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (u : Fin 1) (r : Fin 1024) :
    k0_pay30 (F := Ideal) (k0_pay28 (k0_pay1 v0 v2 v6) a3 a4 a5) (k0_pay29 (k0_pay1 v0 v2 v6) a6 a7 a8) l9 l10 (ix2 u r)
      = rowNode v0 v2 v6 a3 a4 a5 a6 a7 a8 l9 l10 r := by
  unfold k0_pay30 k0_pay29 k0_pay28 rowNode nodeMul nodeValue root
  refine (stored_at _ u r).trans ?_
  refine congrArg Ideal.log ?_
  refine (congrArg₂ (· - ·) Ideal.ofBits_zero_f32 ?_).trans (zero_sub _)
  refine (sumRows_at _ r).trans (Finset.sum_congr rfl fun j _ => ?_)
  refine (sumPairs_at _ j r).trans (Finset.sum_congr rfl fun i _ => ?_)
  simp only [stored_at, log_at, subf_apply, broadcast_apply, sumRows_at, sumPairs_at, select_apply, cmpf_apply, addf_apply, maximumf_apply, absf_at, exp_at, log1p_at, lw_at, pairL_at, pairR_at, mulf_apply, col_at, hT_at]
  exact mix_at _ _

end Cert.SumProduct.Kernel

end
-- ==== Proof.Block.lean ====
/-
  One grid point's output block, as a function of its input blocks.

  The point's batch rows are the rows `r` of the `[1024, 512]` block; the block it writes is `[5, 1024]`, output node `o`
  along the rows and batch row `r` along the columns.  Entry `(o, r)` is the node value in the reciprocal form of the
  hidden units of batch row `r`, with node `o`'s rows of the six constant tables and its two weight tables.  The body
  stores the block one node's row at a time; each stored row is that function of the block's column (the five row
  lemmas), the row's tables being read through the rectangle at offset `o` on the leading axis, and the five rows
  cover the block.
-/
import proofs.«162536_j12068858101769_2_alg».proof.Proof.Gen.KernelIdeal.Frame
import proofs.«162536_j12068858101769_2_alg».proof.Proof.Row0
import proofs.«162536_j12068858101769_2_alg».proof.Proof.Row1
import proofs.«162536_j12068858101769_2_alg».proof.Proof.Row2
import proofs.«162536_j12068858101769_2_alg».proof.Proof.Row3
import proofs.«162536_j12068858101769_2_alg».proof.Proof.Row4

set_option maxRecDepth 16384

noncomputable section

namespace Cert.SumProduct.Kernel

open Cert.KernelIdeal Cert.KernelIdeal.Gen Idealize.ShloMosaic Idealize.ShloMosaic.ValueIdx Cert.SumProduct

/-- Entry `(o, r)` of the block a grid point writes, from the point's eleven input blocks. -/
def blockNode (x0 : Vec Ideal S1024x512 .f32) (x1 : Vec Ideal S20x512 .f32) (x2 : Vec Ideal S1x20 .f32)
    (x3 x4 x5 x6 x7 x8 : Vec Ideal S5x20 .f32) (x9 x10 : Vec Ideal S5x20x20 .f32) (o : Fin 5) (r : Fin 1024) : EReal :=
  nodeMul (fun q => hidden (fun k => x0 (ix2 r k)) (fun k => x1 (ix2 q k)) (x2 (ix2 (0 : Fin 1) q)))
    (fun i => x3 (ix2 o i)) (fun i => x4 (ix2 o i)) (fun i => x5 (ix2 o i))
    (fun i => x6 (ix2 o i)) (fun i => x7 (ix2 o i)) (fun i => x8 (ix2 o i))
    (fun i j => x9 (ix3 o i j)) (fun i j => x10 (ix3 o i j))

/-! ## Where the body's loads read and its stores write -/

theorem ld_r0_0 (X : Vec Ideal S1024x512 .f32) : View.ld X r0_0 = X :=
  View.ld_unit_zero (funext fun a => by match a with | ⟨0, _⟩ => rfl | ⟨1, _⟩ => rfl) _ X
theorem ld_r0_1 (X : Vec Ideal S20x512 .f32) : View.ld X r0_1 = X :=
  View.ld_unit_zero (funext fun a => by match a with | ⟨0, _⟩ => rfl | ⟨1, _⟩ => rfl) _ X
theorem ld_r0_2 (X : Vec Ideal S1x20 .f32) : View.ld X r0_2 = X :=
  View.ld_unit_zero (funext fun a => by match a with | ⟨0, _⟩ => rfl | ⟨1, _⟩ => rfl) _ X

theorem ld_r0_3 (X : Vec Ideal S5x20 .f32) (u : Fin 1) (i : Fin 20) : View.ld X r0_3 (ix2 u i) = X (ix2 (0 : Fin 5) i) := by
  refine congrArg X (funext fun a => Fin.ext ?_)
  have hu : u.val = 0 := by omega
  match a with
  | ⟨0, _⟩ => show 0 + 1 * u.val = 0; omega
  | ⟨1, _⟩ => show 0 + 1 * i.val = i.val; omega
theorem ld_r0_4 (X : Vec Ideal S5x20x20 .f32) (u : Fin 1) (i j : Fin 20) : View.ld X r0_4 (ix3 u i j) = X (ix3 (0 : Fin 5) i j) := by
  refine congrArg X (funext fun a => Fin.ext ?_)
  have hu : u.val = 0 := by omega
  match a with
  | ⟨0, _⟩ => show 0 + 1 * u.val = 0; omega
  | ⟨1, _⟩ => show 0 + 1 * i.val = i.val; omega
  | ⟨2, _⟩ => show 0 + 1 * j.val = j.val; omega
theorem emb_r0_5 (u : Fin 1) (q : Fin 1024) : r0_5.emb (ix2 u q) = ix2 (0 : Fin 5) q := by
  refine funext fun a => Fin.ext ?_
  have hu : u.val = 0 := by omega
  match a with
  | ⟨0, _⟩ => show 0 + 1 * u.val = 0; omega
  | ⟨1, _⟩ => show 0 + 1 * q.val = q.val; omega

theorem ld_r0_6 (X : Vec Ideal S5x20 .f32) (u : Fin 1) (i : Fin 20) : View.ld X r0_6 (ix2 u i) = X (ix2 (1 : Fin 5) i) := by
  refine congrArg X (funext fun a => Fin.ext ?_)
  have hu : u.val = 0 := by omega
  match a with
  | ⟨0, _⟩ => show 1 + 1 * u.val = 1; omega
  | ⟨1, _⟩ => show 0 + 1 * i.val = i.val; omega
theorem ld_r0_7 (X : Vec Ideal S5x20x20 .f32) (u : Fin 1) (i j : Fin 20) : View.ld X r0_7 (ix3 u i j) = X (ix3 (1 : Fin 5) i j) := by
  refine congrArg X (funext fun a => Fin.ext ?_)
  have hu : u.val = 0 := by omega
  match a with
  | ⟨0, _⟩ => show 1 + 1 * u.val = 1; omega
  | ⟨1, _⟩ => show 0 + 1 * i.val = i.val; omega
  | ⟨2, _⟩ => show 0 + 1 * j.val = j.val; omega
theorem emb_r0_8 (u : Fin 1) (q : Fin 1024) : r0_8.emb (ix2 u q) = ix2 (1 : Fin 5) q := by
  refine funext fun a => Fin.ext ?_
  have hu : u.val = 0 := by omega
  match a with
  | ⟨0, _⟩ => show 1 + 1 * u.val = 1; omega
  | ⟨1, _⟩ => show 0 + 1 * q.val = q.val; omega

theorem ld_r0_9 (X : Vec Ideal S5x20 .f32) (u : Fin 1) (i : Fin 20) : View.ld X r0_9 (ix2 u i) = X (ix2 (2 : Fin 5) i) := by
  refine congrArg X (funext fun a => Fin.ext ?_)
  have hu : u.val = 0 := by omega
  match a with
  | ⟨0, _⟩ => show 2 + 1 * u.val = 2; omega
  | ⟨1, _⟩ => show 0 + 1 * i.val = i.val; omega
theorem ld_r0_10 (X : Vec Ideal S5x20x20 .f32) (u : Fin 1) (i j : Fin 20) : View.ld X r0_10 (ix3 u i j) = X (ix3 (2 : Fin 5) i j) := by
  refine congrArg X (funext fun a => Fin.ext ?_)
  have hu : u.val = 0 := by omega
  match a with
  | ⟨0, _⟩ => show 2 + 1 * u.val = 2; omega
  | ⟨1, _⟩ => show 0 + 1 * i.val = i.val; omega
  | ⟨2, _⟩ => show 0 + 1 * j.val = j.val; omega
theorem emb_r0_11 (u : Fin 1) (q : Fin 1024) : r0_11.emb (ix2 u q) = ix2 (2 : Fin 5) q := by
  refine funext fun a => Fin.ext ?_
  have hu : u.val = 0 := by omega
  match a with
  | ⟨0, _⟩ => show 2 + 1 * u.val = 2; omega
  | ⟨1, _⟩ => show 0 + 1 * q.val = q.val; omega

theorem ld_r0_12 (X : Vec Ideal S5x20 .f32) (u : Fin 1) (i : Fin 20) : View.ld X r0_12 (ix2 u i) = X (ix2 (3 : Fin 5) i) := by
  refine congrArg X (funext fun a => Fin.ext ?_)
  have hu : u.val = 0 := by omega
  match a with
  | ⟨0, _⟩ => show 3 + 1 * u.val = 3; omega
  | ⟨1, _⟩ => show 0 + 1 * i.val = i.val; omega
theorem ld_r0_13 (X : Vec Ideal S5x20x20 .f32) (u : Fin 1) (i j : Fin 20) : View.ld X r0_13 (ix3 u i j) = X (ix3 (3 : Fin 5) i j) := by
  refine congrArg X (funext fun a => Fin.ext ?_)
  have hu : u.val = 0 := by omega
  match a with
  | ⟨0, _⟩ => show 3 + 1 * u.val = 3; omega
  | ⟨1, _⟩ => show 0 + 1 * i.val = i.val; omega
  | ⟨2, _⟩ => show 0 + 1 * j.val = j.val; omega
theorem emb_r0_14 (u : Fin 1) (q : Fin 1024) : r0_14.emb (ix2 u q) = ix2 (3 : Fin 5) q := by
  refine funext fun a => Fin.ext ?_
  have hu : u.val = 0 := by omega
  match a with
  | ⟨0, _⟩ => show 3 + 1 * u.val = 3; omega
  | ⟨1, _⟩ => show 0 + 1 * q.val = q.val; omega

theorem ld_r0_15 (X : Vec Ideal S5x20 .f32) (u : Fin 1) (i : Fin 20) : View.ld X r0_15 (ix2 u i) = X (ix2 (4 : Fin 5) i) := by
  refine congrArg X (funext fun a => Fin.ext ?_)
  have hu : u.val = 0 := by omega
  match a with
  | ⟨0, _⟩ => show 4 + 1 * u.val = 4; omega
  | ⟨1, _⟩ => show 0 + 1 * i.val = i.val; omega
theorem ld_r0_16 (X : Vec Ideal S5x20x20 .f32) (u : Fin 1) (i j : Fin 20) : View.ld X r0_16 (ix3 u i j) = X (ix3 (4 : Fin 5) i j) := by
  refine congrArg X (funext fun a => Fin.ext ?_)
  have hu : u.val = 0 := by omega
  match a with
  | ⟨0, _⟩ => show 4 + 1 * u.val = 4; omega
  | ⟨1, _⟩ => show 0 + 1 * i.val = i.val; omega
  | ⟨2, _⟩ => show 0 + 1 * j.val = j.val; omega
theorem emb_r0_17 (u : Fin 1) (q : Fin 1024) : r0_17.emb (ix2 u q) = ix2 (4 : Fin 5) q := by
  refine funext fun a => Fin.ext ?_
  have hu : u.val = 0 := by omega
  match a with
  | ⟨0, _⟩ => show 4 + 1 * u.val = 4; omega
  | ⟨1, _⟩ => show 0 + 1 * q.val = q.val; omega

/-- A stored row over loaded tables is the block's entry, once each load is read where its rectangle says. -/
theorem rowNode_eq_blockNode (x0 : Vec Ideal S1024x512 .f32) (x1 : Vec Ideal S20x512 .f32) (x2 : Vec Ideal S1x20 .f32)
    (x3 x4 x5 x6 x7 x8 : Vec Ideal S5x20 .f32) (x9 x10 : Vec Ideal S5x20x20 .f32)
    (v0 : Vec Ideal S1024x512 .f32) (v2 : Vec Ideal S20x512 .f32) (v6 : Vec Ideal S1x20 .f32)
    (a3 a4 a5 a6 a7 a8 : Vec Ideal S1x20 .f32) (l9 l10 : Vec Ideal S1x20x20 .f32) (o : Fin 5) (q : Fin 1024)
    (h0 : v0 = x0) (h1 : v2 = x1) (h2 : v6 = x2)
    (h3 : ∀ (u : Fin 1) (i : Fin 20), a3 (ix2 u i) = x3 (ix2 o i)) (h4 : ∀ (u : Fin 1) (i : Fin 20), a4 (ix2 u i) = x4 (ix2 o i))
    (h5 : ∀ (u : Fin 1) (i : Fin 20), a5 (ix2 u i) = x5 (ix2 o i)) (h6 : ∀ (u : Fin 1) (i : Fin 20), a6 (ix2 u i) = x6 (ix2 o i))
    (h7 : ∀ (u : Fin 1) (i : Fin 20), a7 (ix2 u i) = x7 (ix2 o i)) (h8 : ∀ (u : Fin 1) (i : Fin 20), a8 (ix2 u i) = x8 (ix2 o i))
    (h9 : ∀ (u : Fin 1) (i j : Fin 20), l9 (ix3 u i j) = x9 (ix3 o i j))
    (h10 : ∀ (u : Fin 1) (i j : Fin 20), l10 (ix3 u i j) = x10 (ix3 o i j)) :
    rowNode v0 v2 v6 a3 a4 a5 a6 a7 a8 l9 l10 q = blockNode x0 x1 x2 x3 x4 x5 x6 x7 x8 x9 x10 o q := by
  subst h0 h1 h2
  unfold rowNode blockNode
  simp only [h3, h4, h5, h6, h7, h8, h9, h10]

/-! ## The block -/

/-- What the body leaves in the output block is that entry, at every `(o, r)`. -/
theorem block_eq (x0 : Vec Ideal S1024x512 .f32) (x1 : Vec Ideal S20x512 .f32) (x2 : Vec Ideal S1x20 .f32)
    (x3 x4 x5 x6 x7 x8 : Vec Ideal S5x20 .f32) (x9 x10 : Vec Ideal S5x20x20 .f32) (o : Fin 5) (r : Fin 1024) :
    out0_11 (F := Ideal) x0 x1 x2 x3 x4 x5 x6 x7 x8 x9 x10 (ix2 o r) = blockNode x0 x1 x2 x3 x4 x5 x6 x7 x8 x9 x10 o r := by
  unfold out0_11
  refine View.canon_apply_of_pieces (Val := Elt Ideal) (S := S5x1024) (e := .f32) (fun y => blockNode x0 x1 x2 x3 x4 x5 x6 x7 x8 x9 x10 (y 0) (y 1)) _ ?_ (ix2 o r)
    (cover0_11 _ _ _ _ _ (ix2 o r))
  intro p hp x
  simp only [List.mem_cons, List.not_mem_nil, or_false] at hp
  rcases hp with rfl | rfl | rfl | rfl | rfl
  · obtain ⟨u, q, rfl⟩ : ∃ (u : Fin 1) (q : Fin 1024), x = ix2 u q := ⟨x 0, x 1, eq_ix2 x⟩
    refine (row4 _ _ _ _ _ _ _ _ _ _ _ u q).trans ?_
    rw [emb_r0_17]
    exact rowNode_eq_blockNode x0 x1 x2 x3 x4 x5 x6 x7 x8 x9 x10 _ _ _ _ _ _ _ _ _ _ _ (4 : Fin 5) q (ld_r0_0 x0) (ld_r0_1 x1) (ld_r0_2 x2)
      (ld_r0_15 x3) (ld_r0_15 x4) (ld_r0_15 x5) (ld_r0_15 x6) (ld_r0_15 x7) (ld_r0_15 x8) (ld_r0_16 x9) (ld_r0_16 x10)
  · obtain ⟨u, q, rfl⟩ : ∃ (u : Fin 1) (q : Fin 1024), x = ix2 u q := ⟨x 0, x 1, eq_ix2 x⟩
    refine (row3 _ _ _ _ _ _ _ _ _ _ _ u q).trans ?_
    rw [emb_r0_14]
    exact rowNode_eq_blockNode x0 x1 x2 x3 x4 x5 x6 x7 x8 x9 x10 _ _ _ _ _ _ _ _ _ _ _ (3 : Fin 5) q (ld_r0_0 x0) (ld_r0_1 x1) (ld_r0_2 x2)
      (ld_r0_12 x3) (ld_r0_12 x4) (ld_r0_12 x5) (ld_r0_12 x6) (ld_r0_12 x7) (ld_r0_12 x8) (ld_r0_13 x9) (ld_r0_13 x10)
  · obtain ⟨u, q, rfl⟩ : ∃ (u : Fin 1) (q : Fin 1024), x = ix2 u q := ⟨x 0, x 1, eq_ix2 x⟩
    refine (row2 _ _ _ _ _ _ _ _ _ _ _ u q).trans ?_
    rw [emb_r0_11]
    exact rowNode_eq_blockNode x0 x1 x2 x3 x4 x5 x6 x7 x8 x9 x10 _ _ _ _ _ _ _ _ _ _ _ (2 : Fin 5) q (ld_r0_0 x0) (ld_r0_1 x1) (ld_r0_2 x2)
      (ld_r0_9 x3) (ld_r0_9 x4) (ld_r0_9 x5) (ld_r0_9 x6) (ld_r0_9 x7) (ld_r0_9 x8) (ld_r0_10 x9) (ld_r0_10 x10)
  · obtain ⟨u, q, rfl⟩ : ∃ (u : Fin 1) (q : Fin 1024), x = ix2 u q := ⟨x 0, x 1, eq_ix2 x⟩
    refine (row1 _ _ _ _ _ _ _ _ _ _ _ u q).trans ?_
    rw [emb_r0_8]
    exact rowNode_eq_blockNode x0 x1 x2 x3 x4 x5 x6 x7 x8 x9 x10 _ _ _ _ _ _ _ _ _ _ _ (1 : Fin 5) q (ld_r0_0 x0) (ld_r0_1 x1) (ld_r0_2 x2)
      (ld_r0_6 x3) (ld_r0_6 x4) (ld_r0_6 x5) (ld_r0_6 x6) (ld_r0_6 x7) (ld_r0_6 x8) (ld_r0_7 x9) (ld_r0_7 x10)
  · obtain ⟨u, q, rfl⟩ : ∃ (u : Fin 1) (q : Fin 1024), x = ix2 u q := ⟨x 0, x 1, eq_ix2 x⟩
    refine (row0 _ _ _ _ _ _ _ _ _ _ _ u q).trans ?_
    rw [emb_r0_5]
    exact rowNode_eq_blockNode x0 x1 x2 x3 x4 x5 x6 x7 x8 x9 x10 _ _ _ _ _ _ _ _ _ _ _ (0 : Fin 5) q (ld_r0_0 x0) (ld_r0_1 x1) (ld_r0_2 x2)
      (ld_r0_3 x3) (ld_r0_3 x4) (ld_r0_3 x5) (ld_r0_3 x6) (ld_r0_3 x7) (ld_r0_3 x8) (ld_r0_4 x9) (ld_r0_4 x10)

end Cert.SumProduct.Kernel

end
-- ==== Proof.KernelFinal.lean ====
/-
  From one grid point's block to the whole array of node values.

  The grid has 32 points; point `t` reads batch rows `1024 t … 1024 t + 1023` (and every table whole) and writes
  columns `1024 t … 1024 t + 1023` of the `[5, 32768]` array of node values, row `o` being output node `o`.  Entry `(o, b)` of that
  array is therefore the node value, in the reciprocal form, of the hidden units of batch row `b` with node `o`'s rows of
  the prepared tables; the 32 column blocks tile the array, so after the last point the whole array holds these values.
-/
import proofs.«162536_j12068858101769_2_alg».proof.Proof.KernelArrays
import proofs.«162536_j12068858101769_2_alg».proof.Proof.Block
import proofs.«162536_j12068858101769_2_alg».proof.Proof.Gen.KernelIdeal.Points

set_option maxRecDepth 16384

noncomputable section

namespace Cert.SumProduct.Kernel

open Idealize.ShloMosaic Idealize.ShloMosaic.TcCoe Idealize.ShloMosaic.ValueIdx Idealize.SL.Sem
open Idealize.ShloMosaic.Pipeline (Dat)
open Cert.KernelIdeal Cert.KernelIdeal.Gen Cert.SumProduct

variable (m : (ℓ : Loc nD τ sig) → Buf (Elt Ideal) ℓ)

/-! ## The array of node values -/

/-- The value of output node `o` on batch row `b`, from the eight arrays the program is launched with: the reciprocal
    form of the node over the hidden units of row `b`, with the reciprocals, the means over the deviations and the
    normalising constants computed from node `o`'s means and deviations. -/
def nodeAt (a0 : Vec Ideal S32768x512 .f32) (a1 : Vec Ideal S20x512 .f32) (a2 : Vec Ideal S20 .f32)
    (a3 a4 a5 a6 : Vec Ideal S5x20 .f32) (a7 : Vec Ideal S5x20x20x2 .f32) (o : Fin 5) (b : Fin 32768) : EReal :=
  nodeMul (fun q => hidden (fun k => a0 (ix2 b k)) (fun k => a1 (ix2 q k)) (a2 (ix1 q)))
    (fun i => recip (a4 (ix2 o i))) (fun i => meanOver (a3 (ix2 o i)) (a4 (ix2 o i))) (fun i => logNorm (a4 (ix2 o i)))
    (fun i => recip (a6 (ix2 o i))) (fun i => meanOver (a5 (ix2 o i)) (a6 (ix2 o i))) (fun i => logNorm (a6 (ix2 o i)))
    (fun i j => a7 (ix4 o i j (0 : Fin 2))) (fun i j => a7 (ix4 o i j (1 : Fin 2)))

/-- The `[5, 32768]` array of node values: entry `(o, b)` is node `o` on batch row `b`. -/
def nodesArr (a0 : Vec Ideal S32768x512 .f32) (a1 : Vec Ideal S20x512 .f32) (a2 : Vec Ideal S20 .f32)
    (a3 a4 a5 a6 : Vec Ideal S5x20 .f32) (a7 : Vec Ideal S5x20x20x2 .f32) : Vec Ideal S5x32768 .f32 :=
  fun y => nodeAt a0 a1 a2 a3 a4 a5 a6 a7 (y 0) (y 1)

theorem nodesArr_ix2 (a0 : Vec Ideal S32768x512 .f32) (a1 : Vec Ideal S20x512 .f32) (a2 : Vec Ideal S20 .f32)
    (a3 a4 a5 a6 : Vec Ideal S5x20 .f32) (a7 : Vec Ideal S5x20x20x2 .f32) (o : Fin 5) (b : Fin 32768) :
    nodesArr a0 a1 a2 a3 a4 a5 a6 a7 (ix2 o b) = nodeAt a0 a1 a2 a3 a4 a5 a6 a7 o b := rfl

/-- The array at an index whose coordinates are known as numbers. -/
theorem nodesArr_apply (a0 : Vec Ideal S32768x512 .f32) (a1 : Vec Ideal S20x512 .f32) (a2 : Vec Ideal S20 .f32)
    (a3 a4 a5 a6 : Vec Ideal S5x20 .f32) (a7 : Vec Ideal S5x20x20x2 .f32) (y : S5x32768.Idx) (o : Fin 5) (b : Fin 32768)
    (h0 : (y 0).val = o.val) (h1 : (y 1).val = b.val) :
    nodesArr a0 a1 a2 a3 a4 a5 a6 a7 y = nodeAt a0 a1 a2 a3 a4 a5 a6 a7 o b := by
  obtain rfl : y = ix2 o b := by
    funext a
    match a with
    | ⟨0, _⟩ => exact Fin.ext h0
    | ⟨1, _⟩ => exact Fin.ext h1
  rfl

/-- One point's block entry is the array's entry, once each input block is known to be the piece of its array the
    point reads: batch row `r` of the block is batch row `b` of the batch, every table is read whole. -/
theorem blockNode_eq_nodeAt (a0 : Vec Ideal S32768x512 .f32) (a1 : Vec Ideal S20x512 .f32) (a2 : Vec Ideal S20 .f32)
    (a3 a4 a5 a6 : Vec Ideal S5x20 .f32) (a7 : Vec Ideal S5x20x20x2 .f32)
    (x0 : Vec Ideal S1024x512 .f32) (x1 : Vec Ideal S20x512 .f32) (x2 : Vec Ideal S1x20 .f32)
    (x3 x4 x5 x6 x7 x8 : Vec Ideal S5x20 .f32) (x9 x10 : Vec Ideal S5x20x20 .f32) (o : Fin 5) (r : Fin 1024) (b : Fin 32768)
    (h0 : ∀ k : Fin 512, x0 (ix2 r k) = a0 (ix2 b k))
    (h1 : ∀ (q : Fin 20) (k : Fin 512), x1 (ix2 q k) = a1 (ix2 q k))
    (h2 : ∀ q : Fin 20, x2 (ix2 (0 : Fin 1) q) = a2 (ix1 q))
    (h3 : ∀ i : Fin 20, x3 (ix2 o i) = recip (a4 (ix2 o i)))
    (h4 : ∀ i : Fin 20, x4 (ix2 o i) = meanOver (a3 (ix2 o i)) (a4 (ix2 o i)))
    (h5 : ∀ i : Fin 20, x5 (ix2 o i) = logNorm (a4 (ix2 o i)))
    (h6 : ∀ i : Fin 20, x6 (ix2 o i) = recip (a6 (ix2 o i)))
    (h7 : ∀ i : Fin 20, x7 (ix2 o i) = meanOver (a5 (ix2 o i)) (a6 (ix2 o i)))
    (h8 : ∀ i : Fin 20, x8 (ix2 o i) = logNorm (a6 (ix2 o i)))
    (h9 : ∀ i j : Fin 20, x9 (ix3 o i j) = a7 (ix4 o i j (0 : Fin 2)))
    (h10 : ∀ i j : Fin 20, x10 (ix3 o i j) = a7 (ix4 o i j (1 : Fin 2))) :
    blockNode x0 x1 x2 x3 x4 x5 x6 x7 x8 x9 x10 o r = nodeAt a0 a1 a2 a3 a4 a5 a6 a7 o b := by
  unfold blockNode nodeAt
  simp only [h0, h1, h2, h3, h4, h5, h6, h7, h8, h9, h10]

/-! ## Which block of its array each window holds at a point -/

/-- The printed index maps, decided once over the 32 grid points: the batch window and the output window move with the
    point along the batch axis; every other window stays at block `(0, …, 0)`, its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = 0 ∧ win0_9.index t (1 : Fin 3) = 0 ∧ win0_9.index t (2 : Fin 3) = 0
    ∧ win0_10.index t (0 : Fin 3) = 0 ∧ win0_10.index t (1 : Fin 3) = 0 ∧ win0_10.index t (2 : Fin 3) = 0
    ∧ win0_11.index t (0 : Fin 2) = 0 ∧ win0_11.index t (1 : Fin 2) = t.val :=
  (by decide +kernel : ∀ t : Fin grid0.N, _)

/-- Row `r` of the batch block at point `t` is batch row `1024 t + r`. -/
theorem batch_block_at (c : Dev nD) (t : Fin cfg0.N) (r : Fin 1024) (k : Fin 512) (b : Fin 32768)
    (hb : b.val = 1024 * t.val + r.val) :
    (iblk m c 0 t : Vec Ideal S1024x512 .f32) (ix2 r k) = X0 m c (ix2 b k) := by
  have e := idx_facts t
  unfold iblk
  rw [View.read_apply]
  show (V m c main_arg0 : S32768x512.Idx → EReal) _ = X0 m c (ix2 b k)
  rw [V_main_arg0]
  refine congrArg _ (funext fun a => Fin.ext ?_)
  match a with
  | ⟨0, _⟩ => show win0_0.index t (0 : Fin 2) * 1024 + 1 * r.val = b.val; omega
  | ⟨1, _⟩ => show win0_0.index t (1 : Fin 2) * 512 + 1 * k.val = k.val; omega

/-- The weights' window holds the first layer's weights whole. -/
theorem weights_block_at (c : Dev nD) (t : Fin cfg0.N) (q : Fin 20) (k : Fin 512) :
    (iblk m c 1 t : Vec Ideal S20x512 .f32) (ix2 q k) = X1 m c (ix2 q k) := by
  have e := idx_facts t
  unfold iblk
  rw [View.read_apply]
  show (V m c main_arg1 : S20x512.Idx → EReal) _ = X1 m c (ix2 q k)
  rw [V_main_arg1]
  refine congrArg _ (funext fun a => Fin.ext ?_)
  match a with
  | ⟨0, _⟩ => show win0_1.index t (0 : Fin 2) * 20 + 1 * q.val = q.val; omega
  | ⟨1, _⟩ => show win0_1.index t (1 : Fin 2) * 512 + 1 * k.val = k.val; omega

/-- The bias window holds the bias row whole. -/
theorem bias_block_at (c : Dev nD) (t : Fin cfg0.N) (q : Fin 20) :
    (iblk m c 2 t : Vec Ideal S1x20 .f32) (ix2 (0 : Fin 1) q) = X2 m c (ix1 q) := by
  have e := idx_facts t
  refine Eq.trans ?_ (bias_at m c q)
  unfold iblk
  rw [View.read_apply]
  show (V m c main_v0 : S1x20.Idx → EReal) _ = (V m c main_v0 : S1x20.Idx → EReal) (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 20 + 1 * q.val = q.val; omega

/-- Window 3 holds the first family's reciprocal deviations whole. -/
theorem table3_block_at (c : Dev nD) (t : Fin cfg0.N) (o : Fin 5) (i : Fin 20) :
    (iblk m c 3 t : Vec Ideal S5x20 .f32) (ix2 o i) = (V m c main_v6 : S5x20.Idx → EReal) (ix2 o i) := by
  have e := idx_facts t
  unfold iblk
  rw [View.read_apply]
  show (V m c main_v6 : S5x20.Idx → EReal) _ = (V m c main_v6 : S5x20.Idx → EReal) (ix2 o i)
  refine congrArg _ (funext fun a => Fin.ext ?_)
  match a with
  | ⟨0, _⟩ => show win0_3.index t (0 : Fin 2) * 5 + 1 * o.val = o.val; omega
  | ⟨1, _⟩ => show win0_3.index t (1 : Fin 2) * 20 + 1 * i.val = i.val; omega

/-- Window 4 holds the first family's means over their deviations whole. -/
theorem table4_block_at (c : Dev nD) (t : Fin cfg0.N) (o : Fin 5) (i : Fin 20) :
    (iblk m c 4 t : Vec Ideal S5x20 .f32) (ix2 o i) = (V m c main_v9 : S5x20.Idx → EReal) (ix2 o i) := by
  have e := idx_facts t
  unfold iblk
  rw [View.read_apply]
  show (V m c main_v9 : S5x20.Idx → EReal) _ = (V m c main_v9 : S5x20.Idx → EReal) (ix2 o i)
  refine congrArg _ (funext fun a => Fin.ext ?_)
  match a with
  | ⟨0, _⟩ => show win0_4.index t (0 : Fin 2) * 5 + 1 * o.val = o.val; omega
  | ⟨1, _⟩ => show win0_4.index t (1 : Fin 2) * 20 + 1 * i.val = i.val; omega

/-- Window 5 holds the first family's normalising constants whole. -/
theorem table5_block_at (c : Dev nD) (t : Fin cfg0.N) (o : Fin 5) (i : Fin 20) :
    (iblk m c 5 t : Vec Ideal S5x20 .f32) (ix2 o i) = (V m c main_v14 : S5x20.Idx → EReal) (ix2 o i) := by
  have e := idx_facts t
  unfold iblk
  rw [View.read_apply]
  show (V m c main_v14 : S5x20.Idx → EReal) _ = (V m c main_v14 : S5x20.Idx → EReal) (ix2 o i)
  refine congrArg _ (funext fun a => Fin.ext ?_)
  match a with
  | ⟨0, _⟩ => show win0_5.index t (0 : Fin 2) * 5 + 1 * o.val = o.val; omega
  | ⟨1, _⟩ => show win0_5.index t (1 : Fin 2) * 20 + 1 * i.val = i.val; omega

/-- Window 6 holds the second family's reciprocal deviations whole. -/
theorem table6_block_at (c : Dev nD) (t : Fin cfg0.N) (o : Fin 5) (i : Fin 20) :
    (iblk m c 6 t : Vec Ideal S5x20 .f32) (ix2 o i) = (V m c main_v8 : S5x20.Idx → EReal) (ix2 o i) := by
  have e := idx_facts t
  unfold iblk
  rw [View.read_apply]
  show (V m c main_v8 : S5x20.Idx → EReal) _ = (V m c main_v8 : S5x20.Idx → EReal) (ix2 o i)
  refine congrArg _ (funext fun a => Fin.ext ?_)
  match a with
  | ⟨0, _⟩ => show win0_6.index t (0 : Fin 2) * 5 + 1 * o.val = o.val; omega
  | ⟨1, _⟩ => show win0_6.index t (1 : Fin 2) * 20 + 1 * i.val = i.val; omega

/-- Window 7 holds the second family's means over their deviations whole. -/
theorem table7_block_at (c : Dev nD) (t : Fin cfg0.N) (o : Fin 5) (i : Fin 20) :
    (iblk m c 7 t : Vec Ideal S5x20 .f32) (ix2 o i) = (V m c main_v10 : S5x20.Idx → EReal) (ix2 o i) := by
  have e := idx_facts t
  unfold iblk
  rw [View.read_apply]
  show (V m c main_v10 : S5x20.Idx → EReal) _ = (V m c main_v10 : S5x20.Idx → EReal) (ix2 o i)
  refine congrArg _ (funext fun a => Fin.ext ?_)
  match a with
  | ⟨0, _⟩ => show win0_7.index t (0 : Fin 2) * 5 + 1 * o.val = o.val; omega
  | ⟨1, _⟩ => show win0_7.index t (1 : Fin 2) * 20 + 1 * i.val = i.val; omega

/-- Window 8 holds the second family's normalising constants whole. -/
theorem table8_block_at (c : Dev nD) (t : Fin cfg0.N) (o : Fin 5) (i : Fin 20) :
    (iblk m c 8 t : Vec Ideal S5x20 .f32) (ix2 o i) = (V m c main_v18 : S5x20.Idx → EReal) (ix2 o i) := by
  have e := idx_facts t
  unfold iblk
  rw [View.read_apply]
  show (V m c main_v18 : S5x20.Idx → EReal) _ = (V m c main_v18 : S5x20.Idx → EReal) (ix2 o i)
  refine congrArg _ (funext fun a => Fin.ext ?_)
  match a with
  | ⟨0, _⟩ => show win0_8.index t (0 : Fin 2) * 5 + 1 * o.val = o.val; omega
  | ⟨1, _⟩ => show win0_8.index t (1 : Fin 2) * 20 + 1 * i.val = i.val; omega

/-- Window 9 holds the first mixture-weight table whole. -/
theorem table9_block_at (c : Dev nD) (t : Fin cfg0.N) (o : Fin 5) (i j : Fin 20) :
    (iblk m c 9 t : Vec Ideal S5x20x20 .f32) (ix3 o i j) = (V m c main_v2 : S5x20x20.Idx → EReal) (ix3 o i j) := by
  have e := idx_facts t
  unfold iblk
  rw [View.read_apply]
  show (V m c main_v2 : S5x20x20.Idx → EReal) _ = (V m c main_v2 : S5x20x20.Idx → EReal) (ix3 o i j)
  refine congrArg _ (funext fun a => Fin.ext ?_)
  match a with
  | ⟨0, _⟩ => show win0_9.index t (0 : Fin 3) * 5 + 1 * o.val = o.val; omega
  | ⟨1, _⟩ => show win0_9.index t (1 : Fin 3) * 20 + 1 * i.val = i.val; omega
  | ⟨2, _⟩ => show win0_9.index t (2 : Fin 3) * 20 + 1 * j.val = j.val; omega

/-- Window 10 holds the second mixture-weight table whole. -/
theorem table10_block_at (c : Dev nD) (t : Fin cfg0.N) (o : Fin 5) (i j : Fin 20) :
    (iblk m c 10 t : Vec Ideal S5x20x20 .f32) (ix3 o i j) = (V m c main_v4 : S5x20x20.Idx → EReal) (ix3 o i j) := by
  have e := idx_facts t
  unfold iblk
  rw [View.read_apply]
  show (V m c main_v4 : S5x20x20.Idx → EReal) _ = (V m c main_v4 : S5x20x20.Idx → EReal) (ix3 o i j)
  refine congrArg _ (funext fun a => Fin.ext ?_)
  match a with
  | ⟨0, _⟩ => show win0_10.index t (0 : Fin 3) * 5 + 1 * o.val = o.val; omega
  | ⟨1, _⟩ => show win0_10.index t (1 : Fin 3) * 20 + 1 * i.val = i.val; omega
  | ⟨2, _⟩ => show win0_10.index t (2 : Fin 3) * 20 + 1 * j.val = j.val; omega

/-! ## What a point writes back, the cover, and the array after the run -/

/-- What point `t` writes back is block `t` of the array of node values: column `r` of the block is batch row
    `1024 t + r`, whose hidden units the point computed from row `r` of its batch block. -/
theorem flushed_eq (c : Dev nD) (t : Fin cfg0.N) :
    (dats m 0 c).flushed 11 t = ((cfg0.win 11).blk t).view.read (Elt Ideal) (nodesArr (X0 m c) (X1 m c) (X2 m c) (X3 m c) (X4 m c) (X5 m c) (X6 m c) (X7 m c)) := by
  show (cfg0.win 11).cut (grid0.coords t) ((dats m 0 c).after 11 t) = _
  rw [after0_11]
  have e := idx_facts t
  have hN : cfg0.N = 32 := N_0
  have ht : t.val < 32 := hN ▸ t.isLt
  funext j
  obtain ⟨o, r, rfl⟩ : ∃ (o : Fin 5) (r : Fin 1024), j = ix2 o r := ⟨j 0, j 1, eq_ix2 j⟩
  rw [View.read_apply]
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 o r)
    = nodesArr (X0 m c) (X1 m c) (X2 m c) (X3 m c) (X4 m c) (X5 m c) (X6 m c) (X7 m c) (((cfg0.win 11).blk t).view.emb (ix2 o r))
  have hr : r.val < 1024 := r.isLt
  refine (block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) o r).trans ?_
  refine Eq.trans ?_ (nodesArr_apply (X0 m c) (X1 m c) (X2 m c) (X3 m c) (X4 m c) (X5 m c) (X6 m c) (X7 m c) (((cfg0.win 11).blk t).view.emb (ix2 o r)) o ⟨1024 * t.val + r.val, by omega⟩ ?_ ?_).symm
  · exact blockNode_eq_nodeAt (X0 m c) (X1 m c) (X2 m c) (X3 m c) (X4 m c) (X5 m c) (X6 m c) (X7 m c) (iblk m c 0 t) (iblk m c 1 t) (iblk m c 2 t) (iblk m c 3 t) (iblk m c 4 t) (iblk m c 5 t) (iblk m c 6 t) (iblk m c 7 t) (iblk m c 8 t) (iblk m c 9 t) (iblk m c 10 t) o r ⟨1024 * t.val + r.val, by omega⟩
      (fun k => batch_block_at m c t r k _ rfl)
      (fun q k => weights_block_at m c t q k)
      (fun q => bias_block_at m c t q)
      (fun i => (table3_block_at m c t o i).trans (recip0_at m c o i))
      (fun i => (table4_block_at m c t o i).trans (meanOver0_at m c o i))
      (fun i => (table5_block_at m c t o i).trans (logNorm0_at m c o i))
      (fun i => (table6_block_at m c t o i).trans (recip1_at m c o i))
      (fun i => (table7_block_at m c t o i).trans (meanOver1_at m c o i))
      (fun i => (table8_block_at m c t o i).trans (logNorm1_at m c o i))
      (fun i j => (table9_block_at m c t o i j).trans (weights0_at m c o i j))
      (fun i j => (table10_block_at m c t o i j).trans (weights1_at m c o i j))
  · show win0_11.index t (0 : Fin 2) * 5 + 1 * o.val = o.val
    omega
  · show win0_11.index t (1 : Fin 2) * 1024 + 1 * r.val = 1024 * t.val + r.val
    omega

/-- An index of the array is in point `t`'s block iff each coordinate is in the block's range on its axis. -/
theorem mem_blk (t : Fin cfg0.N) (i : S5x32768.Idx) :
    i ∈ ((cfg0.win 11).blk t).view.set ↔ ∀ a : Fin 2, win0_11.index t a * S5x1024.size a ≤ (i a).val ∧ (i a).val < win0_11.index t a * S5x1024.size a + S5x1024.size a := by
  show i ∈ ((View.whole main_v19).slice (win0_11.rect t)).set ↔ _
  rw [View.set_slice_whole, Rect.mem_set_unit]
  exact Iff.rfl

/-- Every index of the array is in some point's block: column `b` is written by point `b / 1024`. -/
theorem cover (i : S5x32768.Idx) :
    ∃ t : Fin cfg0.N, (cfg0.win 11).flush t = true ∧ i ∈ ((cfg0.win 11).blk t).view.set := by
  have h0 : (i 0).val < 5 := (i 0).isLt
  have h1 : (i 1).val < 32768 := (i 1).isLt
  have hN : cfg0.N = 32 := N_0
  obtain ⟨t, ht⟩ : ∃ t : Fin cfg0.N, t.val = (i 1).val / 1024 := ⟨⟨(i 1).val / 1024, by rw [hN]; omega⟩, rfl⟩
  have e := idx_facts t
  refine ⟨t, flush0_11 t, ?_⟩
  rw [mem_blk]
  intro a
  match a with
  | ⟨0, _⟩ =>
    show win0_11.index t (0 : Fin 2) * 5 ≤ (i 0).val ∧ (i 0).val < win0_11.index t (0 : Fin 2) * 5 + 5
    omega
  | ⟨1, _⟩ =>
    show win0_11.index t (1 : Fin 2) * 1024 ≤ (i 1).val ∧ (i 1).val < win0_11.index t (1 : Fin 2) * 1024 + 1024
    omega

/-- THE ARRAY AFTER THE RUN: the region's output array ends holding the node values. -/
theorem final (c : Dev nD) :
    (dats m 0 c).arrAt 11 cfg0.N = nodesArr (X0 m c) (X1 m c) (X2 m c) (X3 m c) (X4 m c) (X5 m c) (X6 m c) (X7 m c) :=
  (dats m 0 c).arrAt_eq_of_cover 11 (nodesArr (X0 m c) (X1 m c) (X2 m c) (X3 m c) (X4 m c) (X5 m c) (X6 m c) (X7 m c)) (fun t _ => flushed_eq m c t) cover

end Cert.SumProduct.Kernel

end
-- ==== Proof.KernelRun.lean ====
/-
  The host tail and the run.

  After the region the program turns the `[5, 32768]` array of node values `y` into the `[32768, 1]` result on the
  host: with `M` the maximum of all entries of `y` (from `-∞`), row `b` of the result is
  `1 / (1 + exp (- (∑ o, (M - y o b) · W₂ o + b₂)))`.  The tail is kept as one function of `y`, the output layer's weights
  and its bias; what matters here is only that the program applies it to the array of node values, and that every
  argument ends as it was launched.
-/
import proofs.«162536_j12068858101769_2_alg».proof.Proof.KernelFinal
import Idealize.ShloMosaic.Lib.Pipeline.FrameSuffix

set_option maxRecDepth 16384

noncomputable section

namespace Cert.SumProduct.Kernel

open Idealize.ShloMosaic Idealize.ShloMosaic.TcCoe Idealize.ShloMosaic.ValueIdx Idealize.SL.Sem
open Idealize.ShloMosaic.Pipeline (Dat)
open Cert.KernelIdeal Cert.KernelIdeal.Gen Cert.SumProduct

variable (m : (ℓ : Loc nD τ sig) → Buf (Elt Ideal) ℓ)

/-! ## The tail as one function -/

/-- The host operations after the region, as one function of the array of node values `y`, the output layer's weights
    `w2` and bias `b2`: transpose `y`; its maximum over all entries from `-∞`; that maximum minus each entry; the
    product with the transposed weights; plus the bias; then `1 / (1 + exp (- ·))`. -/
def tailOf (y : Vec Ideal S5x32768 .f32) (w2 : Vec Ideal S1x5 .f32) (b2 : Vec Ideal S1 .f32) : Vec Ideal S32768x1 .f32 :=
  Host.divf (F := Ideal) (broadcastInDim S32768x1 ![] bcast_S_S32768x1 (constant (F := Ideal) S_ .f32 0x3F800000#32))
    (addf (broadcastInDim S32768x1 ![] bcast_S_S32768x1 (constant (F := Ideal) S_ .f32 0x3F800000#32))
      (Host.exp (F := Ideal)
        (Host.negf (F := Ideal)
          (addf
            (Host.dotGeneral (F := Ideal) (φ₁ := .f32) (φ₂ := .f32) dot_S32768x5_S5x1_S32768x1_1_0_0_1_n_n none
              (subf
                (broadcastInDim S32768x5 ![] bcast_S_S32768x5
                  (Host.reduce (FloatOps.maximumf : Ideal .f32 → Ideal .f32 → Ideal .f32)
                    (transpose S32768x5 [1, 0] y transposes_S5x32768_S32768x5_1_0)
                    (constant (F := Ideal) S_ .f32 0xFF800000#32) reducesTo_S32768x5_S_d0_1 h_S_))
                (transpose S32768x5 [1, 0] y transposes_S5x32768_S32768x5_1_0))
              (transpose S5x1 [1, 0] w2 transposes_S1x5_S5x1_1_0))
            (broadcastInDim S32768x1 ![0, 1] bcast_S1x1_S32768x1_0_1
              (broadcastInDim S1x1 ![1] bcast_S1_S1x1_1 b2))))))

/-! ## The tail's result after the run -/

/-- The result buffer ends at the tail of the array of node values, the output layer's weights and its bias as
    launched: the region leaves its output array at the node values, and no operation before the tail writes the
    output layer's weights or bias. -/
theorem tail_eq (c : Dev nD) :
    Pipeline.afterTail₀ cfgs (dats m) 0 (V0 m) [hostOps1] c main_v34
      = tailOf (nodesArr (X0 m c) (X1 m c) (X2 m c) (X3 m c) (X4 m c) (X5 m c) (X6 m c) (X7 m c)) (X8 m c) (X9 m c) := by
  have e19 : Pipeline.withArrays (cfgs 0).spec c (V0 m c) (fun w => (dats m 0 c).arrAt w (cfgs 0).N) (Proc.devRef .tc main_v19)
      = nodesArr (X0 m c) (X1 m c) (X2 m c) (X3 m c) (X4 m c) (X5 m c) (X6 m c) (X7 m c) :=
    (Pipeline.withArrays_arr spec0 launch0.win.arr_inj c _ _ 11).trans (final m c)
  have e8 : Pipeline.withArrays (cfgs 0).spec c (V0 m c) (fun w => (dats m 0 c).arrAt w (cfgs 0).N) (Proc.devRef .tc main_arg8)
      = X8 m c :=
    (Pipeline.withArrays_of_ne _ c (V0 m c) _ main_arg8 (by exact (by decide : ∀ w, Pipeline.arrRef spec0 w ≠ main_arg8))).trans
      (V_main_arg8 m c)
  have e9 : Pipeline.withArrays (cfgs 0).spec c (V0 m c) (fun w => (dats m 0 c).arrAt w (cfgs 0).N) (Proc.devRef .tc main_arg9)
      = X9 m c :=
    (Pipeline.withArrays_of_ne _ c (V0 m c) _ main_arg9 (by exact (by decide : ∀ w, Pipeline.arrRef spec0 w ≠ main_arg9))).trans
      (V_main_arg9 m c)
  unfold Pipeline.afterTail₀
  show StableHlo.after hostOps1 _ (Proc.devRef .tc main_v34) = _
  after_results
  rw [e19, e8, e9]
  rfl

/-! ## The run -/

/-- THE RUN, READ: every weakly fair execution of the program on the TensorCores terminates with the result buffer at
    the tail of the array of node values and every argument as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v34)
        = tailOf (nodesArr (X0 m c) (X1 m c) (X2 m c) (X3 m c) (X4 m c) (X5 m c) (X6 m c) (X7 m c)) (X8 m c) (X9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v34 (Pipeline.mem_restRefs_of main_v34 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.SumProduct.Kernel

end
-- ==== Proof.RefTail.lean ====
/-
  The reference program's tail as a function of the array of output nodes.

  From the [32768, 5] array `y` of node values the program takes the maximum `m` over all entries, forms
  `m - y`, contracts each row with the five output weights, adds the output bias and applies the logistic map
  `1 / (1 + exp (-·))`.  Nothing in these steps looks at how `y` was computed, so they are named once as a function
  of `y`; two programs whose node arrays agree have equal tails.
-/
import proofs.«162536_j12068858101769_2_alg».proof.Proof.Gen.ReferenceIdeal.Read

noncomputable section

namespace Cert.SumProduct.Ref

open Cert.ReferenceIdeal Cert.ReferenceIdeal.Gen Cert.ReferenceIdeal.Read Idealize.ShloMosaic Idealize.ShloMosaic.StableHlo

/-- The tail of the program on a node array `y`, the output weights `x8` and the output bias `x9`. -/
def tailOf (y : (⟨S32768x5, .f32⟩ : BufTy).Contents (Elt Ideal)) (x8 : (⟨S1x5, .f32⟩ : BufTy).Contents (Elt Ideal))
    (x9 : (⟨S1, .f32⟩ : BufTy).Contents (Elt Ideal)) : (⟨S32768x1, .f32⟩ : BufTy).Contents (Elt Ideal) :=
  Host.divf (F := Ideal) (φ := .f32) (val_main_v83 (F := Ideal))
    (addf (F := Ideal) (φ := .f32) (val_main_v81 (F := Ideal))
      (Host.exp (F := Ideal) (φ := .f32)
        (Host.negf (F := Ideal) (φ := .f32)
          (addf (F := Ideal) (φ := .f32)
            (Host.dotGeneral (F := Ideal) (φ₁ := .f32) (φ₂ := .f32) dot_S32768x5_S5x1_S32768x1_1_0_0_1_n_n none
              (subf (F := Ideal) (φ := .f32)
                (broadcastInDim (α := Ideal .f32) S32768x5 ![] bcast_S_S32768x5
                  (Host.reduce (α := Ideal .f32) (FloatOps.maximumf (F := Ideal) (φ := .f32)) y
                    (val_main_cst_4 (F := Ideal)) reducesTo_S32768x5_S_d0_1 h_S_))
                y)
              (val_main_v74 (F := Ideal) x8))
            (val_main_v77 (F := Ideal) x9)))))

/-- The program's result is the tail of its node array. -/
theorem v84_eq_tail (x0 : (⟨S32768x512, .f32⟩ : BufTy).Contents (Elt Ideal)) (x1 : (⟨S20x512, .f32⟩ : BufTy).Contents (Elt Ideal))
    (x2 : (⟨S20, .f32⟩ : BufTy).Contents (Elt Ideal))
    (x3 x4 x5 x6 : (⟨S5x20, .f32⟩ : BufTy).Contents (Elt Ideal)) (x7 : (⟨S5x20x20x2, .f32⟩ : BufTy).Contents (Elt Ideal))
    (x8 : (⟨S1x5, .f32⟩ : BufTy).Contents (Elt Ideal)) (x9 : (⟨S1, .f32⟩ : BufTy).Contents (Elt Ideal)) :
    val_main_v84 (F := Ideal) x0 x1 x2 x3 x4 x5 x6 x7 x8 x9
      = tailOf (val_main_v70 (F := Ideal) x0 x1 x2 x3 x4 x5 x6 x7) x8 x9 := by
  unfold val_main_v84 val_main_v82 val_main_v80 val_main_v79 val_main_v78 val_main_v75 val_main_v73 val_main_v72
    val_main_v71 tailOf
  rfl

/-- Equal node arrays have equal tails. -/
theorem tail_congr (y y' : (⟨S32768x5, .f32⟩ : BufTy).Contents (Elt Ideal)) (h : y = y')
    (x8 : (⟨S1x5, .f32⟩ : BufTy).Contents (Elt Ideal)) (x9 : (⟨S1, .f32⟩ : BufTy).Contents (Elt Ideal)) :
    tailOf y x8 x9 = tailOf y' x8 x9 := by
  rw [h]

end Cert.SumProduct.Ref

end
-- ==== Proof.RefHidden.lean ====
/-
  The reference program's hidden layer read at an index.

  Row `b` of the batch is multiplied with the transposed weight matrix, the bias is added along the rows and the
  result is rectified against the zero word: at coordinates `(b, q)` this is the hidden unit
  `max (∑ k, x b k · W q k + bias q) 0` of the specification.
-/
import proofs.«162536_j12068858101769_2_alg».proof.Proof.Spec
import proofs.«162536_j12068858101769_2_alg».proof.Proof.Gen.ReferenceIdeal.Read

noncomputable section

namespace Cert.SumProduct.Ref

open Cert.ReferenceIdeal Cert.ReferenceIdeal.Read Idealize.ShloMosaic ValueIdx Cert.SumProduct

/-- The left factor of the product at `(b, q)`, summand `k`, is `x b k`. -/
theorem lidx_v1 (b : Fin 32768) (q : Fin 20) (k : Fin 512) : lidx_main_v1 (ix2 b q) k = ix2 b k :=
  funext fun a => Fin.ext (by match a with | ⟨0, _⟩ => rfl | ⟨1, _⟩ => rfl)

/-- The right factor, read through the transposition, is `W q k`. -/
theorem ridx_v1 (b : Fin 32768) (q : Fin 20) (k : Fin 512) : idx_main_v0 (ridx_main_v1 (ix2 b q) k) = ix2 q k :=
  funext fun a => Fin.ext (by match a with | ⟨0, _⟩ => rfl | ⟨1, _⟩ => rfl)

/-- The bias broadcast along the rows is read at `q`. -/
theorem idx_v3 (b : Fin 32768) (q : Fin 20) : idx_main_v2 (idx_main_v3 (ix2 b q)) = ix1 q :=
  funext fun a => Fin.ext (by match a with | ⟨0, _⟩ => rfl)

/-- The rectified affine layer at `(b, q)` is the specification's hidden unit. -/
theorem hidden_at (x0 : (⟨S32768x512, .f32⟩ : BufTy).Contents (Elt Ideal)) (x1 : (⟨S20x512, .f32⟩ : BufTy).Contents (Elt Ideal))
    (x2 : (⟨S20, .f32⟩ : BufTy).Contents (Elt Ideal)) (b : Fin 32768) (q : Fin 20) :
    val_main_v5 (F := Ideal) x0 x1 x2 (ix2 b q)
      = hidden (fun k => x0 (ix2 b k)) (fun k => x1 (ix2 q k)) (x2 (ix1 q)) := by
  rw [val_main_v5_apply, val_main_v4_apply, val_main_v1_apply, val_main_v3_apply, val_main_v2_apply,
    val_main_call0_v0_apply, val_main_call0_cst_apply]
  simp only [val_main_v0_apply, lidx_v1, ridx_v1, idx_v3, Ideal.addf_def, Ideal.maximumf_def, Ideal.ofBits_def,
    Ideal.ofBits_zero_f32]
  rfl

end Cert.SumProduct.Ref

end
-- ==== Proof.RefLeaf.lean ====
/-
  The reference program's Gaussian leaves read at an index.

  At `(b, o, i)` the hidden unit `h = h b i` is centred at the leaf's mean and divided by its deviation,
  `z = (h - μ o i) / σ o i`, and the log-density is `((-½ · z) · z - log σ o i) - ½ log 2π`: the specification's
  quotient form of a leaf, once for each of the two leaf families.
-/
import proofs.«162536_j12068858101769_2_alg».proof.Proof.Spec
import proofs.«162536_j12068858101769_2_alg».proof.Proof.Gen.ReferenceIdeal.Read

noncomputable section

namespace Cert.SumProduct.Ref

open Cert.ReferenceIdeal Cert.ReferenceIdeal.Read Idealize.ShloMosaic ValueIdx Cert.SumProduct

/-! ### The first family (means `x3`, deviations `x4`) -/

/-- The hidden layer broadcast along the nodes is read at `(b, i)`. -/
theorem idx_v9 (b : Fin 32768) (o : Fin 5) (i : Fin 20) : idx_main_v6 (idx_main_v9 (ix3 b o i)) = ix2 b i :=
  funext fun a => Fin.ext (by match a with | ⟨0, _⟩ => rfl | ⟨1, _⟩ => rfl)
/-- The means broadcast along the batch are read at `(o, i)`. -/
theorem idx_v10 (b : Fin 32768) (o : Fin 5) (i : Fin 20) : idx_main_v7 (idx_main_v10 (ix3 b o i)) = ix2 o i :=
  funext fun a => Fin.ext (by match a with | ⟨0, _⟩ => rfl | ⟨1, _⟩ => rfl)
/-- The deviations broadcast along the batch are read at `(o, i)`. -/
theorem idx_v12 (b : Fin 32768) (o : Fin 5) (i : Fin 20) : idx_main_v8 (idx_main_v12 (ix3 b o i)) = ix2 o i :=
  funext fun a => Fin.ext (by match a with | ⟨0, _⟩ => rfl | ⟨1, _⟩ => rfl)
/-- The logarithms of the deviations, broadcast along the batch, are read at `(o, i)`. -/
theorem idx_v18 (b : Fin 32768) (o : Fin 5) (i : Fin 20) : idx_main_v8 (idx_main_v18 (ix3 b o i)) = ix2 o i :=
  funext fun a => Fin.ext (by match a with | ⟨0, _⟩ => rfl | ⟨1, _⟩ => rfl)

/-- A leaf of the first family at `(b, o, i)`, from the hidden unit `(b, i)`. -/
theorem leaf0_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x3 x4 : (⟨S5x20, .f32⟩ : BufTy).Contents (Elt Ideal)) (b : Fin 32768) (o : Fin 5) (i : Fin 20) :
    val_main_v21 (F := Ideal) x0 x1 x2 x3 x4 (ix3 b o i)
      = leafDiv (val_main_v5 (F := Ideal) x0 x1 x2 (ix2 b i)) (x3 (ix2 o i)) (x4 (ix2 o i)) := by
  simp only [val_main_v21_apply, val_main_v20_apply, val_main_cst_0_apply, val_main_v19_apply, val_main_v18_apply,
    val_main_v17_apply, val_main_v16_apply, val_main_v15_apply, val_main_v14_apply, val_main_cst_apply,
    val_main_v13_apply, val_main_v12_apply, val_main_v11_apply, val_main_v10_apply, val_main_v9_apply,
    val_main_v8_apply, val_main_v7_apply, val_main_v6_apply]
  simp only [idx_v9, idx_v10, idx_v12, idx_v18, Ideal.subf_def, Ideal.mulf_def, Ideal.hostDivf_def,
    Ideal.hostUnary_log_def, Ideal.ofBits_def]
  rfl

/-! ### The second family (means `x5`, deviations `x6`) -/

/-- The hidden layer broadcast along the nodes is read at `(b, i)`. -/
theorem idx_v25 (b : Fin 32768) (o : Fin 5) (i : Fin 20) : idx_main_v22 (idx_main_v25 (ix3 b o i)) = ix2 b i :=
  funext fun a => Fin.ext (by match a with | ⟨0, _⟩ => rfl | ⟨1, _⟩ => rfl)
/-- The means broadcast along the batch are read at `(o, i)`. -/
theorem idx_v26 (b : Fin 32768) (o : Fin 5) (i : Fin 20) : idx_main_v23 (idx_main_v26 (ix3 b o i)) = ix2 o i :=
  funext fun a => Fin.ext (by match a with | ⟨0, _⟩ => rfl | ⟨1, _⟩ => rfl)
/-- The deviations broadcast along the batch are read at `(o, i)`. -/
theorem idx_v28 (b : Fin 32768) (o : Fin 5) (i : Fin 20) : idx_main_v24 (idx_main_v28 (ix3 b o i)) = ix2 o i :=
  funext fun a => Fin.ext (by match a with | ⟨0, _⟩ => rfl | ⟨1, _⟩ => rfl)
/-- The logarithms of the deviations, broadcast along the batch, are read at `(o, i)`. -/
theorem idx_v34 (b : Fin 32768) (o : Fin 5) (i : Fin 20) : idx_main_v24 (idx_main_v34 (ix3 b o i)) = ix2 o i :=
  funext fun a => Fin.ext (by match a with | ⟨0, _⟩ => rfl | ⟨1, _⟩ => rfl)

/-- A leaf of the second family at `(b, o, i)`, from the hidden unit `(b, i)`. -/
theorem leaf1_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x5 x6 : (⟨S5x20, .f32⟩ : BufTy).Contents (Elt Ideal)) (b : Fin 32768) (o : Fin 5) (i : Fin 20) :
    val_main_v37 (F := Ideal) x0 x1 x2 x5 x6 (ix3 b o i)
      = leafDiv (val_main_v5 (F := Ideal) x0 x1 x2 (ix2 b i)) (x5 (ix2 o i)) (x6 (ix2 o i)) := by
  simp only [val_main_v37_apply, val_main_v36_apply, val_main_cst_2_apply, val_main_v35_apply, val_main_v34_apply,
    val_main_v33_apply, val_main_v32_apply, val_main_v31_apply, val_main_v30_apply, val_main_cst_1_apply,
    val_main_v29_apply, val_main_v28_apply, val_main_v27_apply, val_main_v26_apply, val_main_v25_apply,
    val_main_v24_apply, val_main_v23_apply, val_main_v22_apply]
  simp only [idx_v25, idx_v26, idx_v28, idx_v34, Ideal.subf_def, Ideal.mulf_def, Ideal.hostDivf_def,
    Ideal.hostUnary_log_def, Ideal.ofBits_def]
  rfl

end Cert.SumProduct.Ref

end
-- ==== Proof.RefMix.lean ====
/-
  The reference program's mixture cells read at an index.

  At `(b, o, i, j)` the two leaf families give the product nodes `L₀ (b,o,i) + L₀ (b,o,j)` and
  `L₁ (b,o,i) + L₁ (b,o,j)`; each receives its mixture weight, `lw (o,i,j,0)` and `lw (o,i,j,1)`, and the two are
  combined by `log (eᵃ + eᵇ)`.  The program guards that combination by the comparison `d ≠ d` of the difference
  `d = a - b` with itself; on the extended reals nothing differs from itself, so the guarded branch is never taken
  and the cell is the stable form `max a b + log1p (exp (-|d|))`.
-/
import proofs.«162536_j12068858101769_2_alg».proof.Proof.Spec
import proofs.«162536_j12068858101769_2_alg».proof.Proof.Gen.ReferenceIdeal.Read

noncomputable section

namespace Cert.SumProduct.Ref

open Cert.ReferenceIdeal Cert.ReferenceIdeal.Read Idealize.ShloMosaic ValueIdx Cert.SumProduct

/-! ### Where the operands of a cell are read -/

/-- The first family broadcast along the last axis is read at `(b, o, i)`. -/
theorem idx_v40 (b : Fin 32768) (o : Fin 5) (i j : Fin 20) : idx_main_v38 (idx_main_v40 (ix4 b o i j)) = ix3 b o i :=
  funext fun a => Fin.ext (by match a with | ⟨0, _⟩ => rfl | ⟨1, _⟩ => rfl | ⟨2, _⟩ => rfl)
/-- The first family broadcast along the third axis is read at `(b, o, j)`. -/
theorem idx_v41 (b : Fin 32768) (o : Fin 5) (i j : Fin 20) : idx_main_v39 (idx_main_v41 (ix4 b o i j)) = ix3 b o j :=
  funext fun a => Fin.ext (by match a with | ⟨0, _⟩ => rfl | ⟨1, _⟩ => rfl | ⟨2, _⟩ => rfl)
/-- The second family broadcast along the last axis is read at `(b, o, i)`. -/
theorem idx_v45 (b : Fin 32768) (o : Fin 5) (i j : Fin 20) : idx_main_v43 (idx_main_v45 (ix4 b o i j)) = ix3 b o i :=
  funext fun a => Fin.ext (by match a with | ⟨0, _⟩ => rfl | ⟨1, _⟩ => rfl | ⟨2, _⟩ => rfl)
/-- The second family broadcast along the third axis is read at `(b, o, j)`. -/
theorem idx_v46 (b : Fin 32768) (o : Fin 5) (i j : Fin 20) : idx_main_v44 (idx_main_v46 (ix4 b o i j)) = ix3 b o j :=
  funext fun a => Fin.ext (by match a with | ⟨0, _⟩ => rfl | ⟨1, _⟩ => rfl | ⟨2, _⟩ => rfl)
/-- The first slice of the weights, flattened and rebuilt by the reshape, is read at `(o, i, j, 0)`: the row-major position `(o · 20 + i) · 20 + j` splits back into its digits. -/
theorem idx_v51 (b : Fin 32768) (o : Fin 5) (i j : Fin 20) :
    idx_main_v48 (idx_main_v49 (idx_main_v50 (idx_main_v51 (ix4 b o i j)))) = ix4 o i j (0 : Fin 2) := by
  have ho := o.isLt; have hi := i.isLt; have hj := j.isLt
  refine funext fun a => Fin.ext ?_
  match a with
  | ⟨0, _⟩ => show ((o.val * 20 + i.val) * 20 + j.val) / 400 = o.val; omega
  | ⟨1, _⟩ => show ((o.val * 20 + i.val) * 20 + j.val) / 20 % 20 = i.val; omega
  | ⟨2, _⟩ => show ((o.val * 20 + i.val) * 20 + j.val) / 1 % 20 = j.val; omega
  | ⟨3, _⟩ => rfl

/-- The second slice of the weights is read at `(o, i, j, 1)` in the same way. -/
theorem idx_v56 (b : Fin 32768) (o : Fin 5) (i j : Fin 20) :
    idx_main_v53 (idx_main_v54 (idx_main_v55 (idx_main_v56 (ix4 b o i j)))) = ix4 o i j (1 : Fin 2) := by
  have ho := o.isLt; have hi := i.isLt; have hj := j.isLt
  refine funext fun a => Fin.ext ?_
  match a with
  | ⟨0, _⟩ => show ((o.val * 20 + i.val) * 20 + j.val) / 400 = o.val; omega
  | ⟨1, _⟩ => show ((o.val * 20 + i.val) * 20 + j.val) / 20 % 20 = i.val; omega
  | ⟨2, _⟩ => show ((o.val * 20 + i.val) * 20 + j.val) / 1 % 20 = j.val; omega
  | ⟨3, _⟩ => rfl

/-! ### The two weighted product nodes -/

/-- The first weighted product node at `(b, o, i, j)`. -/
theorem pair0_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x3 x4 : (⟨S5x20, .f32⟩ : BufTy).Contents (Elt Ideal)) (x7 : (⟨S5x20x20x2, .f32⟩ : BufTy).Contents (Elt Ideal))
    (b : Fin 32768) (o : Fin 5) (i j : Fin 20) :
    val_main_v52 (F := Ideal) x0 x1 x2 x3 x4 x7 (ix4 b o i j)
      = x7 (ix4 o i j (0 : Fin 2))
        + (val_main_v21 (F := Ideal) x0 x1 x2 x3 x4 (ix3 b o i) + val_main_v21 (F := Ideal) x0 x1 x2 x3 x4 (ix3 b o j)) := by
  simp only [val_main_v52_apply, val_main_v51_apply, val_main_v50_apply, val_main_v49_apply, val_main_v48_apply,
    val_main_v42_apply, val_main_v41_apply, val_main_v40_apply, val_main_v39_apply, val_main_v38_apply]
  simp only [idx_v40, idx_v41, idx_v51, Ideal.addf_def]

/-- The second weighted product node at `(b, o, i, j)`. -/
theorem pair1_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x5 x6 : (⟨S5x20, .f32⟩ : BufTy).Contents (Elt Ideal)) (x7 : (⟨S5x20x20x2, .f32⟩ : BufTy).Contents (Elt Ideal))
    (b : Fin 32768) (o : Fin 5) (i j : Fin 20) :
    val_main_v57 (F := Ideal) x0 x1 x2 x5 x6 x7 (ix4 b o i j)
      = x7 (ix4 o i j (1 : Fin 2))
        + (val_main_v37 (F := Ideal) x0 x1 x2 x5 x6 (ix3 b o i) + val_main_v37 (F := Ideal) x0 x1 x2 x5 x6 (ix3 b o j)) := by
  simp only [val_main_v57_apply, val_main_v56_apply, val_main_v55_apply, val_main_v54_apply, val_main_v53_apply,
    val_main_v47_apply, val_main_v46_apply, val_main_v45_apply, val_main_v44_apply, val_main_v43_apply]
  simp only [idx_v45, idx_v46, idx_v56, Ideal.addf_def]

/-! ### The mixture of the two -/

/-- No extended real differs from itself, so the comparison guarding the mixture is false. -/
theorem une_self (d : EReal) : FloatOps.cmpf (F := Ideal) (φ := .f32) .une d d = 0#1 := by
  show BitVec.ofBool (decide (d ≠ d)) = 0#1
  rw [decide_eq_false (fun h => h rfl)]
  rfl

/-- The guarded composite on two numbers is `log (eᵃ + eᵇ)` in its stable form. -/
theorem mix_scalar (a c : EReal) :
    Scalar.select (FloatOps.cmpf (F := Ideal) (φ := .f32) .une (FloatOps.subf (F := Ideal) (φ := .f32) a c)
        (FloatOps.subf (F := Ideal) (φ := .f32) a c))
      (FloatOps.addf (F := Ideal) (φ := .f32) a c)
      (FloatOps.addf (F := Ideal) (φ := .f32) (FloatOps.maximumf (F := Ideal) (φ := .f32) a c)
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) a c))))))
      = logAddExp a c := by
  rw [une_self, select_zero]
  simp only [Ideal.addf_def, Ideal.subf_def, Ideal.maximumf_def, Ideal.hostUnary_log1p_def, Ideal.hostUnary_exp_def,
    Ideal.hostNegf_def, Ideal.negf_def, Ideal.hostAbsf_def, Ideal.absf_def]
  rfl

/-- A mixture cell at `(b, o, i, j)`, from the two weighted product nodes there. -/
theorem mix_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x3 x4 x5 x6 : (⟨S5x20, .f32⟩ : BufTy).Contents (Elt Ideal)) (x7 : (⟨S5x20x20x2, .f32⟩ : BufTy).Contents (Elt Ideal))
    (y : S32768x5x20x20.Idx) :
    val_main_v67 (F := Ideal) x0 x1 x2 x3 x4 x5 x6 x7 y
      = logAddExp (val_main_v52 (F := Ideal) x0 x1 x2 x3 x4 x7 y) (val_main_v57 (F := Ideal) x0 x1 x2 x5 x6 x7 y) := by
  simp only [val_main_v67_apply, val_main_v66_apply, val_main_v65_apply, val_main_v64_apply, val_main_v63_apply,
    val_main_v62_apply, val_main_v61_apply, val_main_v60_apply, val_main_v59_apply, val_main_v58_apply]
  exact mix_scalar _ _

end Cert.SumProduct.Ref

end
-- ==== Proof.RefSum.lean ====
/-
  The host's sum over the two trailing axes of a [32768, 5, 20, 20] array, read at an index.

  The sum into [32768, 5] collects, at `(b, o)`, the entries whose first two coordinates are `(b, o)`: these are
  the entries `(b, o, i, j)` for the 400 pairs `(i, j)`, so the value there is the initial value plus the double sum
  over `j` and `i`.
-/
import proofs.«162536_j12068858101769_2_alg».proof.Proof.Gen.ReferenceIdeal.Read

noncomputable section

namespace Cert.SumProduct.Ref

open Cert.ReferenceIdeal Cert.ReferenceIdeal.Read Idealize.ShloMosaic ValueIdx Cert.SumProduct

/-- Dropping the two trailing coordinates of `(b, o, i, j)` leaves `(b, o)`. -/
theorem drop_ix4 (h : S32768x5x20x20.ReducesTo [2, 3] S32768x5) (b : Fin 32768) (o : Fin 5) (i j : Fin 20) :
    h.drop (ix4 b o i j) = ix2 b o :=
  funext fun a => Fin.ext (by
    match a with
    | ⟨0, _⟩ => exact h.drop_apply_val_of_eq (ix4 b o i j) 0 0
    | ⟨1, _⟩ => exact h.drop_apply_val_of_eq (ix4 b o i j) 1 1)

/-- An index that drops to `(b, o)` is `(b, o, i, j)` for its own two trailing coordinates. -/
theorem eq_ix4_of_drop (h : S32768x5x20x20.ReducesTo [2, 3] S32768x5) (b : Fin 32768) (o : Fin 5)
    (y : S32768x5x20x20.Idx) (hy : h.drop y = ix2 b o) : ix4 b o (y 2 : Fin 20) (y 3 : Fin 20) = y := by
  have e0 : (y 0).val = b.val :=
    (h.drop_apply_val_of_eq y 0 0).symm.trans (congrArg (fun f : S32768x5.Idx => (f 0).val) hy)
  have e1 : (y 1).val = o.val :=
    (h.drop_apply_val_of_eq y 1 1).symm.trans (congrArg (fun f : S32768x5.Idx => (f 1).val) hy)
  exact funext fun a => Fin.ext (by
    match a with
    | ⟨0, _⟩ => exact e0.symm
    | ⟨1, _⟩ => exact e1.symm
    | ⟨2, _⟩ => rfl
    | ⟨3, _⟩ => rfl)

/-- The host's sum over the two trailing axes at `(b, o)`: the initial value plus the sum over the pairs. -/
theorem hostSum_pairs (h : S32768x5x20x20.ReducesTo [2, 3] S32768x5) (x : S32768x5x20x20.Idx → EReal) (init : EReal)
    (b : Fin 32768) (o : Fin 5) :
    Ideal.hostReduceAdd h x init (ix2 b o) = init + ∑ j : Fin 20, ∑ i : Fin 20, x (ix4 b o i j) := by
  unfold Ideal.hostReduceAdd
  refine congrArg (init + ·) ?_
  rw [Finset.sum_comm]
  refine Eq.trans ?_ (Fintype.sum_prod_type (fun p : Fin 20 × Fin 20 => x (ix4 b o p.1 p.2)))
  refine Finset.sum_nbij' (fun y => ((y 2 : Fin 20), (y 3 : Fin 20))) (fun p => ix4 b o p.1 p.2) ?_ ?_ ?_ ?_ ?_
  · intro y _; exact Finset.mem_univ _
  · intro p _; exact Finset.mem_filter.mpr ⟨Finset.mem_univ _, drop_ix4 h b o p.1 p.2⟩
  · intro y hy; exact eq_ix4_of_drop h b o y (Finset.mem_filter.mp hy).2
  · intro p _; rfl
  · intro y hy; exact congrArg x (eq_ix4_of_drop h b o y (Finset.mem_filter.mp hy).2).symm

end Cert.SumProduct.Ref

end
-- ==== Proof.RefNode.lean ====
/-
  The reference program's output nodes read at an index.

  The 400 mixture cells of node `o` on batch row `b` are summed over their two trailing axes from the zero word,
  the sum is negated and its logarithm taken.  With the hidden units, the leaves and the cells read at their
  indices, this is the specification's output node in the quotient form, `log (-(∑ j, ∑ i, cell i j))`.
-/
import proofs.«162536_j12068858101769_2_alg».proof.Proof.RefHidden
import proofs.«162536_j12068858101769_2_alg».proof.Proof.RefLeaf
import proofs.«162536_j12068858101769_2_alg».proof.Proof.RefMix
import proofs.«162536_j12068858101769_2_alg».proof.Proof.RefSum

noncomputable section

namespace Cert.SumProduct.Ref

open Cert.ReferenceIdeal Cert.ReferenceIdeal.Read Idealize.ShloMosaic ValueIdx Cert.SumProduct

/-- The root of node `(b, o)`: the sum of its cells over the pairs `(i, j)`; the zero word it starts from adds nothing. -/
theorem root_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x3 x4 x5 x6 : (⟨S5x20, .f32⟩ : BufTy).Contents (Elt Ideal)) (x7 : (⟨S5x20x20x2, .f32⟩ : BufTy).Contents (Elt Ideal))
    (b : Fin 32768) (o : Fin 5) :
    val_main_v68 (F := Ideal) x0 x1 x2 x3 x4 x5 x6 x7 (ix2 b o)
      = ∑ j : Fin 20, ∑ i : Fin 20, val_main_v67 (F := Ideal) x0 x1 x2 x3 x4 x5 x6 x7 (ix4 b o i j) := by
  unfold val_main_v68 Host.reduceAdd
  rw [Ideal.hostReduceAdd_def, hostSum_pairs, val_main_cst_3_apply, Ideal.ofBits_def, Ideal.ofBits_zero_f32, zero_add]

/-- The reference's value at node `(b, o)` is the specification's output node in the quotient form. -/
theorem node_at (x0 : (⟨S32768x512, .f32⟩ : BufTy).Contents (Elt Ideal)) (x1 : (⟨S20x512, .f32⟩ : BufTy).Contents (Elt Ideal))
    (x2 : (⟨S20, .f32⟩ : BufTy).Contents (Elt Ideal))
    (x3 x4 x5 x6 : (⟨S5x20, .f32⟩ : BufTy).Contents (Elt Ideal)) (x7 : (⟨S5x20x20x2, .f32⟩ : BufTy).Contents (Elt Ideal))
    (b : Fin 32768) (o : Fin 5) :
    val_main_v70 (F := Ideal) x0 x1 x2 x3 x4 x5 x6 x7 (ix2 b o)
      = nodeDiv (fun q => hidden (fun k => x0 (ix2 b k)) (fun k => x1 (ix2 q k)) (x2 (ix1 q)))
          (fun i => x3 (ix2 o i)) (fun i => x4 (ix2 o i)) (fun i => x5 (ix2 o i)) (fun i => x6 (ix2 o i))
          (fun i j => x7 (ix4 o i j 0)) (fun i j => x7 (ix4 o i j 1)) := by
  rw [val_main_v70_apply, val_main_v69_apply, root_at]
  simp only [mix_at, pair0_at, pair1_at, leaf0_at, leaf1_at, hidden_at, Ideal.hostUnary_log_def, Ideal.hostNegf_def,
    Ideal.negf_def]
  unfold nodeDiv nodeValue root
  rfl

end Cert.SumProduct.Ref

end
-- ==== Proof.Leaf.lean ====
/-
  The real-number algebra behind the comparison of the two leaf forms.

  For a real deviation `σ ≠ 0` the quotient `x / σ` of the extended reals is the product `x · (1/σ)` with the real
  reciprocal.  With `h`, `μ` real as well, the two standardised values
      `h · (1/σ) - μ · (1/σ)`   and   `(h - μ) / σ`
  are the same real number by distributivity.  Writing `A` for the common quadratic term `(-½ · z) · z`, `l` for
  `log σ` and `K` for the constant, the two leaves are `A + ((-l) - K)` and `(A - l) - K`; since `a - b = a + (-b)`
  on the extended reals and addition there is associative, these agree for every `A`, `l`, `K`, finite or not.

  A hidden unit built from real inputs is real: a finite sum of products of reals is real, and so is the larger of
  two reals.
-/
import proofs.«162536_j12068858101769_2_alg».proof.Proof.Spec

noncomputable section

namespace Cert.SumProduct

open Idealize.ShloMosaic

/-- The standardised value `z` in its two forms: `h · (1/σ) - μ · (1/σ) = (h - μ) / σ` for real `h`, `μ`, `σ ≠ 0`. -/
theorem z_eq (h mu s : ℝ) (hs : s ≠ 0) :
    (h : EReal) * recip (s : EReal) - meanOver (mu : EReal) (s : EReal)
      = Ideal.div ((h : EReal) - (mu : EReal)) (s : EReal) := by
  rw [meanOver, recip, Ideal.div_coe hs, Ideal.div_coe hs, one_mul]
  rw [← EReal.coe_mul, ← EReal.coe_mul, ← EReal.coe_sub, ← EReal.coe_sub, ← EReal.coe_mul, sub_mul]

/-- Adding the pre-combined constant `(-l) - K` is subtracting `l` and `K` in turn, for all extended reals. -/
theorem add_neg_sub_eq (A l K : EReal) : A + ((-l) - K) = (A - l) - K := by
  rw [sub_eq_add_neg, sub_eq_add_neg, sub_eq_add_neg, add_assoc]

/-- The two leaf forms agree on real data with a positive deviation. -/
theorem leaf_eq (h mu s : ℝ) (hs : 0 < s) :
    leafMul (h : EReal) (recip (s : EReal)) (meanOver (mu : EReal) (s : EReal)) (logNorm (s : EReal))
      = leafDiv (h : EReal) (mu : EReal) (s : EReal) := by
  rw [leafMul, leafDiv, z_eq h mu s (ne_of_gt hs), logNorm, add_neg_sub_eq]

/-- A finite sum of products of reals is a real. -/
theorem sum_mul_real {n : ℕ} (x w : Fin n → ℝ) :
    (∑ k : Fin n, (x k : EReal) * (w k : EReal)) = ((∑ k : Fin n, x k * w k : ℝ) : EReal) := by
  refine Finset.induction_on (Finset.univ : Finset (Fin n)) (by simp) ?_
  intro a t ha ih
  rw [Finset.sum_insert ha, Finset.sum_insert ha, ih, EReal.coe_add, EReal.coe_mul]

/-- A hidden unit over real inputs is real. -/
theorem hidden_real (x w : Fin 512 → ℝ) (b : ℝ) :
    ∃ r : ℝ, hidden (fun k => (x k : EReal)) (fun k => (w k : EReal)) (b : EReal) = (r : EReal) := by
  refine ⟨max ((∑ k : Fin 512, x k * w k) + b) 0, ?_⟩
  rw [hidden, sum_mul_real, ← EReal.coe_add, ← EReal.coe_zero]
  exact (EReal.coe_strictMono.monotone.map_max).symm

/-- The two node forms agree on real hidden units, real means and positive real deviations. -/
theorem node_eq (h mu0 s0 mu1 s1 : Fin 20 → ℝ) (hs0 : ∀ i, 0 < s0 i) (hs1 : ∀ i, 0 < s1 i)
    (lw0 lw1 : Fin 20 → Fin 20 → EReal) :
    nodeMul (fun i => (h i : EReal)) (fun i => recip (s0 i : EReal))
        (fun i => meanOver (mu0 i : EReal) (s0 i : EReal)) (fun i => logNorm (s0 i : EReal))
        (fun i => recip (s1 i : EReal)) (fun i => meanOver (mu1 i : EReal) (s1 i : EReal))
        (fun i => logNorm (s1 i : EReal)) lw0 lw1
      = nodeDiv (fun i => (h i : EReal)) (fun i => (mu0 i : EReal)) (fun i => (s0 i : EReal))
        (fun i => (mu1 i : EReal)) (fun i => (s1 i : EReal)) lw0 lw1 := by
  unfold nodeMul nodeDiv
  have e0 : (fun i => leafMul (h i : EReal) (recip (s0 i : EReal)) (meanOver (mu0 i : EReal) (s0 i : EReal))
      (logNorm (s0 i : EReal))) = fun i => leafDiv (h i : EReal) (mu0 i : EReal) (s0 i : EReal) :=
    funext fun i => leaf_eq (h i) (mu0 i) (s0 i) (hs0 i)
  have e1 : (fun i => leafMul (h i : EReal) (recip (s1 i : EReal)) (meanOver (mu1 i : EReal) (s1 i : EReal))
      (logNorm (s1 i : EReal))) = fun i => leafDiv (h i : EReal) (mu1 i : EReal) (s1 i : EReal) :=
    funext fun i => leaf_eq (h i) (mu1 i) (s1 i) (hs1 i)
  rw [e0, e1]

end Cert.SumProduct

end
-- ==== Proof.PreFacts.lean ====
/-
  The precondition, read back.

  The precondition is one truth value: the conjunction, over the ten argument arrays, of "every element `x` has
  `|x| < +∞`", followed by "every element of the two deviation arrays is `> 0`".  Each "every element" is a
  reduction by `and` over all axes of an array of comparisons, starting from `true`.

  Read at the extended reals: `|x| = max x (-x)`, the word `0x7F800000` is `+∞` and the word `0x00000000` is
  `0`.  An extended real with `max x (-x) < ⊤` is neither `⊤` nor `⊥`, hence a real number; and `x > 0` is the
  order of the extended reals.  A conjunction is true exactly when both sides are, and a reduction by `and` into a
  single cell is true only if every element reduced is true.  So the precondition gives, element by element: the first
  seven arrays (input rows, weights, bias, and the two families of means and deviations) hold real numbers, and the
  deviations are positive.
-/
import proofs.«162536_j12068858101769_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.SumProduct.Pre

open Idealize.ShloMosaic Cert.Pre_finite_inputs

/-- The scalar shape has one index. -/
instance : Subsingleton S_.Idx := ⟨fun a b => funext fun d => d.elim0⟩

/-- An extended real whose absolute value `max a (-a)` lies strictly below `+∞` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The word `0x7F800000` denotes `+∞`. -/
theorem inf_word : Ideal.ofBits .f32 0x7F800000#32 = (⊤ : EReal) := by
  simp [Ideal.ofBits, Ideal.ieee]

/-- A truth value made from a Boolean is `1` exactly when the Boolean is true. -/
theorem ofBool_eq_one (b : Bool) : BitVec.ofBool b = 1#1 ↔ b = true := by cases b <;> decide

/-- One element of the comparison `|a| < +∞` being true makes `a` a real number. -/
theorem elem_finite (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  apply real_of_abs_lt_top
  have h' : Ideal.cmp .olt (max a (-a)) (Ideal.ofBits .f32 0x7F800000#32) = 1#1 := h
  rw [inf_word, Ideal.cmp, ofBool_eq_one] at h'
  exact of_decide_eq_true h'

/-- One element of the comparison `a > 0` being true makes `a` positive. -/
theorem elem_pos (a : EReal)
    (h : FloatOps.cmpf (F := Ideal) (φ := .f32) .ogt a (FloatOps.ofBits (F := Ideal) .f32 0x00000000#32) = 1#1) :
    (0 : EReal) < a := by
  have h' : Ideal.cmp .ogt a (Ideal.ofBits .f32 0x00000000#32) = 1#1 := h
  rw [Ideal.ofBits_zero_f32, Ideal.cmp, ofBool_eq_one] at h'
  exact of_decide_eq_true h'

/-- "Every element has `|x| < +∞`", true as a reduction over all axes, makes every element a real number. -/
theorem all_finite {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32)))
        init hr hu ValueIdx.ix0 = 1#1)
    (i : s.Idx) : ∃ r : ℝ, x i = (r : EReal) :=
  elem_finite (x i) (Host.reduce_andi_all _ init hr hu ValueIdx.ix0 e i)

/-- "Every element is `> 0`", true as a reduction over all axes, makes every element positive. -/
theorem all_pos {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .ogt x (broadcastInDim s ![] hb (constant (F := Ideal) S_ .f32 0x00000000#32)))
        init hr hu ValueIdx.ix0 = 1#1)
    (i : s.Idx) : (0 : EReal) < x i :=
  elem_pos (x i) (Host.reduce_andi_all _ init hr hu ValueIdx.ix0 e i)

/-- What the precondition says of the arrays the network reads: real entries, positive deviations. -/
structure Decoded (a0 : FVec Ideal S32768x512 .f32) (a1 : FVec Ideal S20x512 .f32) (a2 : FVec Ideal S20 .f32)
    (a3 a4 a5 a6 : FVec Ideal S5x20 .f32) : Prop where
  real0 : ∀ i, ∃ r : ℝ, a0 i = (r : EReal)
  real1 : ∀ i, ∃ r : ℝ, a1 i = (r : EReal)
  real2 : ∀ i, ∃ r : ℝ, a2 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  pos4 : ∀ i, (0 : EReal) < a4 i
  pos6 : ∀ i, (0 : EReal) < a6 i

/-- The precondition decoded: if the printed predicate is true of the ten arrays, the first seven hold real
    numbers and the two deviation arrays are positive. -/
theorem decode [Facts] (a0 : FVec Ideal S32768x512 .f32) (a1 : FVec Ideal S20x512 .f32) (a2 : FVec Ideal S20 .f32)
    (a3 a4 a5 a6 : FVec Ideal S5x20 .f32) (a7 : FVec Ideal S5x20x20x2 .f32) (a8 : FVec Ideal S1x5 .f32)
    (a9 : FVec Ideal S1 .f32)
    (h : fn (F := Ideal) a0 a1 a2 a3 a4 a5 a6 a7 a8 a9 = fun _ => 1#1) :
    Decoded a0 a1 a2 a3 a4 a5 a6 := by
  have e := congrFun h ValueIdx.ix0
  dsimp only [fn, fn_part1, fn_part2, fn_part3, andi] at e
  simp only [IntOp.andi_eq_one] at e
  obtain ⟨⟨⟨⟨⟨⟨⟨⟨⟨⟨⟨e0, e1⟩, e2⟩, e3⟩, e4⟩, e5⟩, e6⟩, -⟩, -⟩, -⟩, p4⟩, p6⟩ := e
  exact
    { real0 := all_finite a0 _ _ _ _ e0
      real1 := all_finite a1 _ _ _ _ e1
      real2 := all_finite a2 _ _ _ _ e2
      real3 := all_finite a3 _ _ _ _ e3
      real4 := all_finite a4 _ _ _ _ e4
      real5 := all_finite a5 _ _ _ _ e5
      real6 := all_finite a6 _ _ _ _ e6
      pos4 := all_pos a4 _ _ _ _ p4
      pos6 := all_pos a6 _ _ _ _ p6 }

end Cert.SumProduct.Pre

end
-- ==== Proof.NodeBridge.lean ====
/-
  From the decoded precondition to the equality of the two node forms.

  The precondition makes every entry of the input rows, the weights, the bias, the means and the deviations a real
  number, and the deviations positive.  Choosing those reals, each hidden unit is the rectified affine image of real
  data and hence real, and every leaf is compared on real `h`, `μ` and real `σ > 0`, where the reciprocal form and
  the quotient form are one number.  So the two forms of an output node agree for every batch row and every node.
-/
import proofs.«162536_j12068858101769_2_alg».proof.Proof.Leaf
import proofs.«162536_j12068858101769_2_alg».proof.Proof.PreFacts
import Idealize.ShloMosaic.Lib.ValueIdx

noncomputable section

namespace Cert.SumProduct

open Idealize.ShloMosaic Idealize.ShloMosaic.ValueIdx Cert.Pre_finite_inputs

/-- Under the decoded precondition the reciprocal form and the quotient form of an output node agree, at every batch
    row `b` and every output node `o`, whatever the mixture weights. -/
theorem node_bridge (a0 : FVec Ideal S32768x512 .f32) (a1 : FVec Ideal S20x512 .f32) (a2 : FVec Ideal S20 .f32)
    (a3 a4 a5 a6 : FVec Ideal S5x20 .f32) (hd : Pre.Decoded a0 a1 a2 a3 a4 a5 a6)
    (lw0 lw1 : Fin 20 → Fin 20 → EReal) (b : Fin 32768) (o : Fin 5) :
    nodeMul (fun q => hidden (fun k => a0 (ix2 b k)) (fun k => a1 (ix2 q k)) (a2 (ix1 q)))
        (fun i => recip (a4 (ix2 o i))) (fun i => meanOver (a3 (ix2 o i)) (a4 (ix2 o i)))
        (fun i => logNorm (a4 (ix2 o i)))
        (fun i => recip (a6 (ix2 o i))) (fun i => meanOver (a5 (ix2 o i)) (a6 (ix2 o i)))
        (fun i => logNorm (a6 (ix2 o i))) lw0 lw1
      = nodeDiv (fun q => hidden (fun k => a0 (ix2 b k)) (fun k => a1 (ix2 q k)) (a2 (ix1 q)))
        (fun i => a3 (ix2 o i)) (fun i => a4 (ix2 o i)) (fun i => a5 (ix2 o i)) (fun i => a6 (ix2 o i)) lw0 lw1 := by
  -- the real numbers behind the entries
  choose r0 h0 using hd.real0
  choose r1 h1 using hd.real1
  choose r2 h2 using hd.real2
  choose r3 h3 using hd.real3
  choose r4 h4 using hd.real4
  choose r5 h5 using hd.real5
  choose r6 h6 using hd.real6
  -- the hidden units are real
  have hh : ∀ q : Fin 20, ∃ r : ℝ,
      hidden (fun k => a0 (ix2 b k)) (fun k => a1 (ix2 q k)) (a2 (ix1 q)) = (r : EReal) := by
    intro q
    simp only [h0, h1, h2]
    exact hidden_real (fun k => r0 (ix2 b k)) (fun k => r1 (ix2 q k)) (r2 (ix1 q))
  choose rh hrh using hh
  -- the real deviations are positive
  have p4 : ∀ i : Fin 20, 0 < r4 (ix2 o i) := fun i => by
    have hp := hd.pos4 (ix2 o i)
    rw [h4] at hp
    exact EReal.coe_pos.1 hp
  have p6 : ∀ i : Fin 20, 0 < r6 (ix2 o i) := fun i => by
    have hp := hd.pos6 (ix2 o i)
    rw [h6] at hp
    exact EReal.coe_pos.1 hp
  simp only [hrh, h3, h4, h5, h6]
  exact node_eq rh (fun i => r3 (ix2 o i)) (fun i => r4 (ix2 o i)) (fun i => r5 (ix2 o i))
    (fun i => r6 (ix2 o i)) p4 p6 lw0 lw1

end Cert.SumProduct

end
-- ==== Proof.NodesBridge.lean ====
/-
  The two programs' tables of node values are one table.

  The kernel leaves a `[5, 32768]` array, node along the rows and batch row along the columns, each entry the node
  value in the reciprocal form; the reference computes a `[32768, 5]` array of node values in the quotient form.  When
  every input is a real number and every deviation is positive the two forms agree entry by entry, so the kernel's
  array transposed is the reference's.
-/
import proofs.«162536_j12068858101769_2_alg».proof.Proof.KernelFinal
import proofs.«162536_j12068858101769_2_alg».proof.Proof.RefNode
import proofs.«162536_j12068858101769_2_alg».proof.Proof.NodeBridge
import Idealize.ShloMosaic.Lib.ValueLayout

noncomputable section

namespace Cert.SumProduct

open Idealize.ShloMosaic Idealize.ShloMosaic.ValueIdx

/-- Entry `(o, b)` of the kernel's table is entry `(b, o)` of the reference's. -/
theorem nodes_at (a0 : FVec Ideal ⟨2, ![32768, 512]⟩ .f32) (a1 : FVec Ideal ⟨2, ![20, 512]⟩ .f32) (a2 : FVec Ideal ⟨1, ![20]⟩ .f32)
    (a3 a4 a5 a6 : FVec Ideal ⟨2, ![5, 20]⟩ .f32) (a7 : FVec Ideal ⟨4, ![5, 20, 20, 2]⟩ .f32)
    (hd : Pre.Decoded a0 a1 a2 a3 a4 a5 a6) (b : Fin 32768) (o : Fin 5) :
    Kernel.nodesArr a0 a1 a2 a3 a4 a5 a6 a7 (ix2 o b)
      = Cert.ReferenceIdeal.Read.val_main_v70 (F := Ideal) a0 a1 a2 a3 a4 a5 a6 a7 (ix2 b o) := by
  rw [Ref.node_at]
  exact node_bridge a0 a1 a2 a3 a4 a5 a6 hd _ _ b o

/-- The kernel's table transposed is the reference's table. -/
theorem transposed_nodes (a0 : FVec Ideal ⟨2, ![32768, 512]⟩ .f32) (a1 : FVec Ideal ⟨2, ![20, 512]⟩ .f32) (a2 : FVec Ideal ⟨1, ![20]⟩ .f32)
    (a3 a4 a5 a6 : FVec Ideal ⟨2, ![5, 20]⟩ .f32) (a7 : FVec Ideal ⟨4, ![5, 20, 20, 2]⟩ .f32)
    (hd : Pre.Decoded a0 a1 a2 a3 a4 a5 a6)
    (h : (⟨2, ![5, 32768]⟩ : Shape).Transposes [1, 0] ⟨2, ![32768, 5]⟩) :
    transpose ⟨2, ![32768, 5]⟩ [1, 0] (Kernel.nodesArr a0 a1 a2 a3 a4 a5 a6 a7) h
      = Cert.ReferenceIdeal.Read.val_main_v70 (F := Ideal) a0 a1 a2 a3 a4 a5 a6 a7 := by
  funext y
  obtain ⟨b, o, rfl⟩ : ∃ (b : Fin 32768) (o : Fin 5), y = ix2 b o := ⟨y 0, y 1, eq_ix2 y⟩
  exact (transpose_ix2_apply (a := 5) (b := 32768) _ h b o).trans (nodes_at a0 a1 a2 a3 a4 a5 a6 a7 hd b o)

end Cert.SumProduct

end
-- ==== Proof.ResultBridge.lean ====
/-
  The two programs' results are one array.

  After its table of node values each program does the same thing: the maximum `m` of the table, `m - y`, the
  contraction of each row with the five output weights, the output bias, and the logistic map.  The kernel's table is
  the reference's transposed and the kernel transposes it first, so the kernel's result is the reference's tail of its
  transposed table; under the precondition that transposed table is the reference's own, and the results agree.
-/
import proofs.«162536_j12068858101769_2_alg».proof.Proof.KernelRun
import proofs.«162536_j12068858101769_2_alg».proof.Proof.RefTail
import proofs.«162536_j12068858101769_2_alg».proof.Proof.NodesBridge

noncomputable section

namespace Cert.SumProduct

open Idealize.ShloMosaic Idealize.ShloMosaic.ValueIdx

/-- The kernel's tail of a `[5, 32768]` table is the reference's tail of the table transposed: operation by operation
    the two texts are the same. -/
theorem tail_transposed (y : FVec Ideal ⟨2, ![5, 32768]⟩ .f32) (w2 : FVec Ideal ⟨2, ![1, 5]⟩ .f32) (b2 : FVec Ideal ⟨1, ![1]⟩ .f32)
    (h : (⟨2, ![5, 32768]⟩ : Shape).Transposes [1, 0] ⟨2, ![32768, 5]⟩) :
    Kernel.tailOf y w2 b2
      = Ref.tailOf (transpose ⟨2, ![32768, 5]⟩ [1, 0] y h) w2 b2 := by
  unfold Kernel.tailOf Ref.tailOf
  rfl

/-- Under the precondition the two results are equal. -/
theorem result_eq (a0 : FVec Ideal ⟨2, ![32768, 512]⟩ .f32) (a1 : FVec Ideal ⟨2, ![20, 512]⟩ .f32) (a2 : FVec Ideal ⟨1, ![20]⟩ .f32)
    (a3 a4 a5 a6 : FVec Ideal ⟨2, ![5, 20]⟩ .f32) (a7 : FVec Ideal ⟨4, ![5, 20, 20, 2]⟩ .f32)
    (a8 : FVec Ideal ⟨2, ![1, 5]⟩ .f32) (a9 : FVec Ideal ⟨1, ![1]⟩ .f32)
    (hd : Pre.Decoded a0 a1 a2 a3 a4 a5 a6) :
    Kernel.tailOf (Kernel.nodesArr a0 a1 a2 a3 a4 a5 a6 a7) a8 a9
      = Ref.tailOf (Cert.ReferenceIdeal.Read.val_main_v70 (F := Ideal) a0 a1 a2 a3 a4 a5 a6 a7) a8 a9 := by
  have h : (⟨2, ![5, 32768]⟩ : Shape).Transposes [1, 0] ⟨2, ![32768, 5]⟩ := by decide
  rw [tail_transposed _ _ _ h, transposed_nodes a0 a1 a2 a3 a4 a5 a6 a7 hd h]

end Cert.SumProduct

end
-- ==== Proof.lean ====
/-
  Two programs for one small network are equal at the exact values.

  A batch row passes through a rectified affine layer of twenty hidden units; five output nodes each sum, over the
  400 pairs of hidden units, a two-component mixture in log space of products of Gaussian leaves, and return the
  logarithm of minus that sum; the five node values are shifted by their overall maximum, contracted with five output
  weights, offset by a bias and sent through the logistic map.

  One program divides by each leaf's deviation and subtracts its logarithm; the other multiplies by the reciprocal
  and adds a constant prepared beforehand.  With every input a real number and every deviation positive these are the
  same real numbers (distributivity, and associativity of the extended reals' addition), the order of the sums does
  not matter, and everything after the table of node values is the same text in both.  The positivity of the
  deviations is what keeps the reference's own logarithm and quotient inside their domain; without it the two leaf
  forms part at a zero deviation.

  The pieces: the specification (Spec), the leaf algebra (Leaf), the precondition read back (PreFacts), the
  reference read at an index (RefHidden … RefNode, RefTail), one grid point's block (RowParts, Row0 … Row4, Block),
  the arrays the region finds and the array it leaves (KernelArrays, KernelFinal), the kernel's run (KernelRun), and
  the two bridges (NodeBridge, NodesBridge, ResultBridge).
-/
import proofs.«162536_j12068858101769_2_alg».proof.Defs
import proofs.«162536_j12068858101769_2_alg».proof.Proof.Gen.Kernel
import proofs.«162536_j12068858101769_2_alg».proof.Proof.Gen.Kernel.Skeleton
import proofs.«162536_j12068858101769_2_alg».proof.Proof.Gen.Kernel.Launch
import proofs.«162536_j12068858101769_2_alg».proof.Proof.Gen.Kernel.Points
import proofs.«162536_j12068858101769_2_alg».proof.Proof.Gen.Kernel.Frame
import proofs.«162536_j12068858101769_2_alg».proof.Proof.Gen.KernelIdeal
import proofs.«162536_j12068858101769_2_alg».proof.Proof.Gen.KernelIdeal.Skeleton
import proofs.«162536_j12068858101769_2_alg».proof.Proof.Gen.KernelIdeal.Launch
import proofs.«162536_j12068858101769_2_alg».proof.Proof.Gen.KernelIdeal.Points
import proofs.«162536_j12068858101769_2_alg».proof.Proof.Gen.KernelIdeal.Frame
import proofs.«162536_j12068858101769_2_alg».proof.Proof.Gen.ReferenceIdeal
import proofs.«162536_j12068858101769_2_alg».proof.Proof.Gen.Pre_finite_inputs
import proofs.«162536_j12068858101769_2_alg».proof.Proof.Gen.ReferenceIdeal.Run
import proofs.«162536_j12068858101769_2_alg».proof.Proof.Gen.ReferenceIdeal.Read
import proofs.«162536_j12068858101769_2_alg».proof.Proof.ResultBridge
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel at the exact values. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The exact-value kernel is the printed kernel's own text: nothing was rewritten. -/
theorem preserves : Cert.preserves_Kernel_KernelIdeal := trivial

/-- At the exact values the kernel ends at its tail of the table of node values in the reciprocal form, the
    reference at its tail of the table in the quotient form; on arguments that agree, real and with positive
    deviations, these are one array. -/
theorem algebraic : Cert.algebraic_KernelIdeal_ReferenceIdeal := by
  intro m ρ m' ρ' hpre hagree
  refine ⟨_, Cert.SumProduct.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v84_eq, e0, e1, e2, e3, e4, e5, e6, e7, e8, e9, Cert.SumProduct.Ref.v84_eq_tail]
  exact (Cert.SumProduct.result_eq _ _ _ _ _ _ _ _ _ _ (Cert.SumProduct.Pre.decode _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
